-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x4096x128 : Shape := ⟨3, ![4, 4096, 128]⟩
abbrev S4x4096x16 : Shape := ⟨3, ![4, 4096, 16]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S4x4096x3 .f32) (main_arg1 : FVec F S4x4096x3 .f32) (main_arg2 : FVec F S4x4096x128 .f32) (main_arg3 : IVec S4x4096x16 32) (main_arg4 : IVec S4x4096x16 32) (main_arg5 : FVec F S256x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S4x4096x3 : Shape := ⟨3, ![4, 4096, 3]⟩
abbrev S4x4096x128 : Shape := ⟨3, ![4, 4096, 128]⟩
abbrev S4x4096x16 : Shape := ⟨3, ![4, 4096, 16]⟩
abbrev S256x256 : Shape := ⟨2, ![256, 256]⟩
abbrev S256 : Shape := ⟨1, ![256]⟩
abbrev S256x128 : Shape := ⟨2, ![256, 128]⟩
abbrev S128 : Shape := ⟨1, ![128]⟩
abbrev S4 : Shape := ⟨1, ![4]⟩
abbrev S4x1x1 : Shape := ⟨3, ![4, 1, 1]⟩
abbrev S_ : Shape := ⟨0, ![]⟩
abbrev S4x4096x16x1 : Shape := ⟨4, ![4, 4096, 16, 1]⟩
abbrev S4x4096x16x2 : Shape := ⟨4, ![4, 4096, 16, 2]⟩
abbrev S4x4096x16x128 : Shape := ⟨4, ![4, 4096, 16, 128]⟩
abbrev S16384x128 : Shape := ⟨2, ![16384, 128]⟩
abbrev S16384x16x128 : Shape := ⟨3, ![16384, 16, 128]⟩
abbrev S16384x16 : Shape := ⟨2, ![16384, 16]⟩
abbrev S128x256 : Shape := ⟨2, ![128, 256]⟩
abbrev S512x128 : Shape := ⟨2, ![512, 128]⟩
abbrev S512x16x128 : Shape := ⟨3, ![512, 16, 128]⟩
abbrev S512x16 : Shape := ⟨2, ![512, 16]⟩
abbrev S512x256 : Shape := ⟨2, ![512, 256]⟩
abbrev S8192x128 : Shape := ⟨2, ![8192, 128]⟩
abbrev S8192x256 : Shape := ⟨2, ![8192, 256]⟩
abbrev S512x16x256 : Shape := ⟨3, ![512, 16, 256]⟩
abbrev S512x1x256 : Shape := ⟨3, ![512, 1, 256]⟩
abbrev S1x1x256 : Shape := ⟨3, ![1, 1, 256]⟩
abbrev S1x256 : Shape := ⟨2, ![1, 256]⟩
abbrev S512x16x1 : Shape := ⟨3, ![512, 16, 1]⟩
abbrev S512 : Shape := ⟨1, ![512]⟩
abbrev S512x1 : Shape := ⟨2, ![512, 1]⟩
abbrev S1x128 : Shape := ⟨2, ![1, 128]⟩

abbrev nBuf : Space → Nat
  | .hbm => 44
  | .vmem => 15
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x128, .f32⟩
  | .hbm, ⟨3, _⟩ => ⟨S4x4096x16, .i32⟩
  | .hbm, ⟨4, _⟩ => ⟨S4x4096x16, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S4x4096x128, .bf16⟩
  | .hbm, ⟨12, _⟩ => ⟨S4, .i32⟩
  | .hbm, ⟨13, _⟩ => ⟨S4x1x1, .i32⟩
  | .hbm, ⟨14, _⟩ => ⟨S_, .i32⟩
  | .hbm, ⟨15, _⟩ => ⟨S4x1x1, .i32⟩
  | .hbm, ⟨16, _⟩ => ⟨S4x1x1, .i1⟩
  | .hbm, ⟨17, _⟩ => ⟨S_, .i32⟩
  | .hbm, ⟨18, _⟩ => ⟨S4x1x1, .i32⟩
  | .hbm, ⟨19, _⟩ => ⟨S4x1x1, .i32⟩
  | .hbm, ⟨20, _⟩ => ⟨S4x1x1, .i32⟩
  | .hbm, ⟨21, _⟩ => ⟨S_, .i32⟩
  | .hbm, ⟨22, _⟩ => ⟨S4x4096x16, .i32⟩
  | .hbm, ⟨23, _⟩ => ⟨S4x4096x16, .i1⟩
  | .hbm, ⟨24, _⟩ => ⟨S_, .i32⟩
  | .hbm, ⟨25, _⟩ => ⟨S4x4096x16, .i32⟩
  | .hbm, ⟨26, _⟩ => ⟨S4x4096x16, .i32⟩
  | .hbm, ⟨27, _⟩ => ⟨S4x4096x16, .i32⟩
  | .hbm, ⟨28, _⟩ => ⟨S4x4096x16, .i32⟩
  | .hbm, ⟨29, _⟩ => ⟨S4x4096x16x1, .i32⟩
  | .hbm, ⟨30, _⟩ => ⟨S4x4096x16x1, .i32⟩
  | .hbm, ⟨31, _⟩ => ⟨S4x4096x16x2, .i32⟩
  | .hbm, ⟨32, _⟩ => ⟨S4x4096x16x128, .bf16⟩
  | .hbm, ⟨33, _⟩ => ⟨S16384x128, .bf16⟩
  | .hbm, ⟨34, _⟩ => ⟨S16384x16x128, .bf16⟩
  | .hbm, ⟨35, _⟩ => ⟨S16384x16, .i32⟩
  | .hbm, ⟨36, _⟩ => ⟨S128x256, .f32⟩
  | .hbm, ⟨37, _⟩ => ⟨S128x256, .bf16⟩
  | .hbm, ⟨38, _⟩ => ⟨S128x256, .f32⟩
  | .hbm, ⟨39, _⟩ => ⟨S128x256, .bf16⟩
  | .hbm, ⟨40, _⟩ => ⟨S256x256, .bf16⟩
  | .hbm, ⟨41, _⟩ => ⟨S256x128, .bf16⟩
  | .hbm, ⟨42, _⟩ => ⟨S16384x128, .f32⟩
  | .hbm, ⟨43, _⟩ => ⟨S4x4096x128, .f32⟩
  | .local _ .vmem, ⟨0, _⟩ => ⟨S512x128, .bf16⟩
  | .local _ .vmem, ⟨1, _⟩ => ⟨S512x128, .bf16⟩
  | .local _ .vmem, ⟨2, _⟩ => ⟨S512x16x128, .bf16⟩
  | .local _ .vmem, ⟨3, _⟩ => ⟨S512x16x128, .bf16⟩
  | .local _ .vmem, ⟨4, _⟩ => ⟨S512x16, .i32⟩
  | .local _ .vmem, ⟨5, _⟩ => ⟨S512x16, .i32⟩
  | .local _ .vmem, ⟨6, _⟩ => ⟨S128x256, .bf16⟩
  | .local _ .vmem, ⟨7, _⟩ => ⟨S128x256, .bf16⟩
  | .local _ .vmem, ⟨8, _⟩ => ⟨S256, .f32⟩
  | .local _ .vmem, ⟨9, _⟩ => ⟨S256x256, .bf16⟩
  | .local _ .vmem, ⟨10, _⟩ => ⟨S256, .f32⟩
  | .local _ .vmem, ⟨11, _⟩ => ⟨S256x128, .bf16⟩
  | .local _ .vmem, ⟨12, _⟩ => ⟨S128, .f32⟩
  | .local _ .vmem, ⟨13, _⟩ => ⟨S512x128, .f32⟩
  | .local _ .vmem, ⟨14, _⟩ => ⟨S512x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x4096x16 : S_.BroadcastsInDim S4x4096x16 (![] : Fin 0 → Fin S4x4096x16.rank)
  bcast_S4x1x1_S4x4096x16_0_1_2 : S4x1x1.BroadcastsInDim S4x4096x16 (![0, 1, 2] : Fin 3 → Fin S4x4096x16.rank)
  bcast_S4x4096x16_S4x4096x16x1_0_1_2 : S4x4096x16.BroadcastsInDim S4x4096x16x1 (![0, 1, 2] : Fin 3 → Fin S4x4096x16x1.rank)
  concatenates_S4x4096x16x1_S4x4096x16x1_S4x4096x16x2_d3 : Shape.Concatenates [S4x4096x16x1, S4x4096x16x1] S4x4096x16x2 3
  shapeCasts_S4x4096x128_S16384x128 : S4x4096x128.ShapeCasts S16384x128
  shapeCasts_S4x4096x16x128_S16384x16x128 : S4x4096x16x128.ShapeCasts S16384x16x128
  shapeCasts_S4x4096x16_S16384x16 : S4x4096x16.ShapeCasts S16384x16
  slices_S256x256_S128x256_0_0 : S256x256.Slices ![0, 0] S128x256
  slices_S256x256_S128x256_128_0 : S256x256.Slices ![128, 0] S128x256
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x16x128_S512x16x128_0_0_0 : ∀ a, (![0, 0, 0] : Fin 3 → Nat) a + S512x16x128.size a ≤ S512x16x128.size a
  h_S512x16x128 : 0 < S512x16x128.numel
  shapeCasts_S512x16x128_S512x16x128 : S512x16x128.ShapeCasts S512x16x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S512x16x128_S8192x128 : S512x16x128.ShapeCasts S8192x128
  shapeCasts_S8192x256_S512x16x256 : S8192x256.ShapeCasts S512x16x256
  shapeCasts_S512x256_S512x1x256 : S512x256.ShapeCasts S512x1x256
  broadcasts_S512x1x256_S512x16x256 : S512x1x256.Broadcasts S512x16x256
  shapeCasts_S256_S1x1x256 : S256.ShapeCasts S1x1x256
  broadcasts_S1x1x256_S512x16x256 : S1x1x256.Broadcasts S512x16x256
  shapeCasts_S512x16x256_S8192x256 : S512x16x256.ShapeCasts S8192x256
  shapeCasts_S256_S1x256 : S256.ShapeCasts S1x256
  broadcasts_S1x256_S8192x256 : S1x256.Broadcasts S8192x256
  inb_S512x16_S512x16_0_0 : ∀ a, (![0, 0] : Fin 2 → Nat) a + S512x16.size a ≤ S512x16.size a
  h_S512x16 : 0 < S512x16.numel
  shapeCasts_S512x16_S512x16 : S512x16.ShapeCasts S512x16
  shapeCasts_S512x16_S512x16x1 : S512x16.ShapeCasts S512x16x1
  broadcasts_S512x16x1_S512x16x256 : S512x16x1.Broadcasts S512x16x256
  reduces_S512x16x256_S512x256 : S512x16x256.Reduces [1] S512x256
  reduces_S512x16_S512 : S512x16.Reduces [1] S512
  shapeCasts_S512_S512x1 : S512.ShapeCasts S512x1
  shapeCasts_S128_S1x128 : S128.ShapeCasts S1x128
  broadcasts_S1x128_S512x128 : S1x128.Broadcasts S512x128
  broadcasts_S512x1_S512x128 : S512x1.Broadcasts S512x128
  shapeCasts_S16384x128_S4x4096x128 : S16384x128.ShapeCasts S4x4096x128
  gather_S4x4096x128_S4x4096x16x2_S4x4096x16x128_3_01_n_n_01_3_11128_wf : GatherDims.WF S4x4096x128 S4x4096x16x2 S4x4096x16x128 [3] [0, 1] [] [0, 1] [] 3 ![1, 1, 128]
  dot_S512x128_S128x256_S512x256_1_0_0_1_n_n_wf : DotDims.WF S512x128 S128x256 S512x256 [1] [0] [0] [1] [] []
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .bf16 = 32 ∨ (Rect.block (s := S16384x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16x128.size a ≤ S16384x16x128.size a
  hwx0_1 : ∀ i : grid0.Coords, EltTy.bits .bf16 = 32 ∨ (Rect.block (s := S16384x16x128) S512x16x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S16384x16.size a
  hwx0_2 : ∀ i : grid0.Coords, EltTy.bits .i32 = 32 ∨ (Rect.block (s := S16384x16) S512x16.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S16384x128.size a
  hwx0_10 : ∀ i : grid0.Coords, EltTy.bits .f32 = 32 ∨ (Rect.block (s := S16384x128) S512x128.size (cc0_transform_10 i) (hinb0_10 i)).WholeWords (EltTy.packing .f32)

variable [Facts₀]

def gather_S4x4096x128_S4x4096x16x2_S4x4096x16x128_3_01_n_n_01_3_11128 : GatherDims S4x4096x128 S4x4096x16x2 S4x4096x16x128 where
  offsetDims := [3]
  collapsedSliceDims := [0, 1]
  operandBatchingDims := []
  startIndicesBatchingDims := []
  startIndexMap := [0, 1]
  indexVectorDim := 3
  sliceSizes := ![1, 1, 128]
  wf := gather_S4x4096x128_S4x4096x16x2_S4x4096x16x128_3_01_n_n_01_3_11128_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v18) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x4096x128 : Shape := ⟨3, ![4, 4096, 128]⟩
abbrev S4x4096x16 : Shape := ⟨3, ![4, 4096, 16]⟩
abbrev S256x256 : Shape := ⟨2, ![256, 256]⟩
abbrev S256 : Shape := ⟨1, ![256]⟩
abbrev S256x128 : Shape := ⟨2, ![256, 128]⟩
abbrev S128 : Shape := ⟨1, ![128]⟩
abbrev S4 : Shape := ⟨1, ![4]⟩
abbrev S4x1x1 : Shape := ⟨3, ![4, 1, 1]⟩
abbrev S_ : Shape := ⟨0, ![]⟩
abbrev S4x4096x16x1 : Shape := ⟨4, ![4, 4096, 16, 1]⟩
abbrev S4x4096x16x2 : Shape := ⟨4, ![4, 4096, 16, 2]⟩
abbrev S4x4096x16x128 : Shape := ⟨4, ![4, 4096, 16, 128]⟩
abbrev S4x4096x1x128 : Shape := ⟨4, ![4, 4096, 1, 128]⟩
abbrev S4x4096x16x256 : Shape := ⟨4, ![4, 4096, 16, 256]⟩
abbrev S1x1x1x256 : Shape := ⟨4, ![1, 1, 1, 256]⟩
abbrev S1x1x1x128 : Shape := ⟨4, ![1, 1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x128, .f32⟩
  | .hbm, ⟨3, _⟩ => ⟨S4x4096x16, .i32⟩
  | .hbm, ⟨4, _⟩ => ⟨S4x4096x16, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S4, .i32⟩
  | .hbm, ⟨12, _⟩ => ⟨S4x1x1, .i32⟩
  | .hbm, ⟨13, _⟩ => ⟨S_, .i32⟩
  | .hbm, ⟨14, _⟩ => ⟨S4x1x1, .i32⟩
  | .hbm, ⟨15, _⟩ => ⟨S4x1x1, .i1⟩
  | .hbm, ⟨16, _⟩ => ⟨S_, .i32⟩
  | .hbm, ⟨17, _⟩ => ⟨S4x1x1, .i32⟩
  | .hbm, ⟨18, _⟩ => ⟨S4x1x1, .i32⟩
  | .hbm, ⟨19, _⟩ => ⟨S4x1x1, .i32⟩
  | .hbm, ⟨20, _⟩ => ⟨S_, .i32⟩
  | .hbm, ⟨21, _⟩ => ⟨S4x4096x16, .i32⟩
  | .hbm, ⟨22, _⟩ => ⟨S4x4096x16, .i1⟩
  | .hbm, ⟨23, _⟩ => ⟨S_, .i32⟩
  | .hbm, ⟨24, _⟩ => ⟨S4x4096x16, .i32⟩
  | .hbm, ⟨25, _⟩ => ⟨S4x4096x16, .i32⟩
  | .hbm, ⟨26, _⟩ => ⟨S4x4096x16, .i32⟩
  | .hbm, ⟨27, _⟩ => ⟨S4x4096x16, .i32⟩
  | .hbm, ⟨28, _⟩ => ⟨S4x4096x16x1, .i32⟩
  | .hbm, ⟨29, _⟩ => ⟨S4x4096x16x1, .i32⟩
  | .hbm, ⟨30, _⟩ => ⟨S4x4096x16x2, .i32⟩
  | .hbm, ⟨31, _⟩ => ⟨S4x4096x16x128, .f32⟩
  | .hbm, ⟨32, _⟩ => ⟨S4x4096x1x128, .f32⟩
  | .hbm, ⟨33, _⟩ => ⟨S4x4096x16x128, .f32⟩
  | .hbm, ⟨34, _⟩ => ⟨S4x4096x16x256, .f32⟩
  | .hbm, ⟨35, _⟩ => ⟨S4x4096x16x256, .f32⟩
  | .hbm, ⟨36, _⟩ => ⟨S1x1x1x256, .f32⟩
  | .hbm, ⟨37, _⟩ => ⟨S4x4096x16x256, .f32⟩
  | .hbm, ⟨38, _⟩ => ⟨S4x4096x16x256, .f32⟩
  | .hbm, ⟨39, _⟩ => ⟨S_, .f32⟩
  | .hbm, ⟨40, _⟩ => ⟨S4x4096x16x256, .f32⟩
  | .hbm, ⟨41, _⟩ => ⟨S4x4096x16x256, .f32⟩
  | .hbm, ⟨42, _⟩ => ⟨S4x4096x16x256, .f32⟩
  | .hbm, ⟨43, _⟩ => ⟨S1x1x1x256, .f32⟩
  | .hbm, ⟨44, _⟩ => ⟨S4x4096x16x256, .f32⟩
  | .hbm, ⟨45, _⟩ => ⟨S4x4096x16x256, .f32⟩
  | .hbm, ⟨46, _⟩ => ⟨S_, .f32⟩
  | .hbm, ⟨47, _⟩ => ⟨S4x4096x16x256, .f32⟩
  | .hbm, ⟨48, _⟩ => ⟨S4x4096x16x256, .f32⟩
  | .hbm, ⟨49, _⟩ => ⟨S4x4096x16x128, .f32⟩
  | .hbm, ⟨50, _⟩ => ⟨S1x1x1x128, .f32⟩
  | .hbm, ⟨51, _⟩ => ⟨S4x4096x16x128, .f32⟩
  | .hbm, ⟨52, _⟩ => ⟨S4x4096x16x128, .f32⟩
  | .hbm, ⟨53, _⟩ => ⟨S4x4096x16x1, .i32⟩
  | .hbm, ⟨54, _⟩ => ⟨S4x4096x16x1, .f32⟩
  | .hbm, ⟨55, _⟩ => ⟨S4x4096x16x128, .f32⟩
  | .hbm, ⟨56, _⟩ => ⟨S4x4096x16x128, .f32⟩
  | .hbm, ⟨57, _⟩ => ⟨S_, .f32⟩
  | .hbm, ⟨58, _⟩ => ⟨S4x4096x128, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x4096x16 : S_.BroadcastsInDim S4x4096x16 (![] : Fin 0 → Fin S4x4096x16.rank)
  bcast_S4x1x1_S4x4096x16_0_1_2 : S4x1x1.BroadcastsInDim S4x4096x16 (![0, 1, 2] : Fin 3 → Fin S4x4096x16.rank)
  bcast_S4x4096x16_S4x4096x16x1_0_1_2 : S4x4096x16.BroadcastsInDim S4x4096x16x1 (![0, 1, 2] : Fin 3 → Fin S4x4096x16x1.rank)
  concatenates_S4x4096x16x1_S4x4096x16x1_S4x4096x16x2_d3 : Shape.Concatenates [S4x4096x16x1, S4x4096x16x1] S4x4096x16x2 3
  bcast_S4x4096x128_S4x4096x1x128_0_1_3 : S4x4096x128.BroadcastsInDim S4x4096x1x128 (![0, 1, 3] : Fin 3 → Fin S4x4096x1x128.rank)
  bcast_S4x4096x1x128_S4x4096x16x128_0_1_2_3 : S4x4096x1x128.BroadcastsInDim S4x4096x16x128 (![0, 1, 2, 3] : Fin 4 → Fin S4x4096x16x128.rank)
  concatenates_S4x4096x16x128_S4x4096x16x128_S4x4096x16x256_d3 : Shape.Concatenates [S4x4096x16x128, S4x4096x16x128] S4x4096x16x256 3
  bcast_S256_S1x1x1x256_3 : S256.BroadcastsInDim S1x1x1x256 (![3] : Fin 1 → Fin S1x1x1x256.rank)
  bcast_S1x1x1x256_S4x4096x16x256_0_1_2_3 : S1x1x1x256.BroadcastsInDim S4x4096x16x256 (![0, 1, 2, 3] : Fin 4 → Fin S4x4096x16x256.rank)
  bcast_S_S4x4096x16x256 : S_.BroadcastsInDim S4x4096x16x256 (![] : Fin 0 → Fin S4x4096x16x256.rank)
  bcast_S128_S1x1x1x128_3 : S128.BroadcastsInDim S1x1x1x128 (![3] : Fin 1 → Fin S1x1x1x128.rank)
  bcast_S1x1x1x128_S4x4096x16x128_0_1_2_3 : S1x1x1x128.BroadcastsInDim S4x4096x16x128 (![0, 1, 2, 3] : Fin 4 → Fin S4x4096x16x128.rank)
  bcast_S4x4096x16x1_S4x4096x16x128_0_1_2_3 : S4x4096x16x1.BroadcastsInDim S4x4096x16x128 (![0, 1, 2, 3] : Fin 4 → Fin S4x4096x16x128.rank)
  reducesTo_S4x4096x16x128_S4x4096x128_d2 : S4x4096x16x128.ReducesTo [2] S4x4096x128
  h_S_ : 0 < S_.numel
  gather_S4x4096x128_S4x4096x16x2_S4x4096x16x128_3_01_n_n_01_3_11128_wf : GatherDims.WF S4x4096x128 S4x4096x16x2 S4x4096x16x128 [3] [0, 1] [] [0, 1] [] 3 ![1, 1, 128]
  dot_S4x4096x16x256_S256x256_S4x4096x16x256_3_0_012_1_n_n_wf : DotDims.WF S4x4096x16x256 S256x256 S4x4096x16x256 [3] [0] [0, 1, 2] [1] [] []
  dot_S4x4096x16x256_S256x128_S4x4096x16x128_3_0_012_1_n_n_wf : DotDims.WF S4x4096x16x256 S256x128 S4x4096x16x128 [3] [0] [0, 1, 2] [1] [] []

variable [Facts₀]

def gather_S4x4096x128_S4x4096x16x2_S4x4096x16x128_3_01_n_n_01_3_11128 : GatherDims S4x4096x128 S4x4096x16x2 S4x4096x16x128 where
  offsetDims := [3]
  collapsedSliceDims := [0, 1]
  operandBatchingDims := []
  startIndicesBatchingDims := []
  startIndexMap := [0, 1]
  indexVectorDim := 3
  sliceSizes := ![1, 1, 128]
  wf := gather_S4x4096x128_S4x4096x16x2_S4x4096x16x128_3_01_n_n_01_3_11128_wf
def dot_S4x4096x16x256_S256x256_S4x4096x16x256_3_0_012_1_n_n : DotDims S4x4096x16x256 S256x256 S4x4096x16x256 where
  lhsContracting := [3]
  rhsContracting := [0]
  lhsNonContracting := [0, 1, 2]
  rhsNonContracting := [1]
  lhsBatch := []
  rhsBatch := []
  wf := dot_S4x4096x16x256_S256x256_S4x4096x16x256_3_0_012_1_n_n_wf
def dot_S4x4096x16x256_S256x128_S4x4096x16x128_3_0_012_1_n_n : DotDims S4x4096x16x256 S256x128 S4x4096x16x128 where
  lhsContracting := [3]
  rhsContracting := [0]
  lhsNonContracting := [0, 1, 2]
  rhsNonContracting := [1]
  lhsBatch := []
  rhsBatch := []
  wf := dot_S4x4096x16x256_S256x128_S4x4096x16x128_3_0_012_1_n_n_wf

class Facts : Prop extends Facts₀ where

variable [Facts]
-- ==== Proof.EdgeMlp.lean ====
/-
  One node of the message-passing layer, as plain mathematics on the extended reals.

  A node has its own feature row `s`, the feature rows `nb k` of its `K` neighbours, and a weight `mk k`
  per neighbour (the validity mask, read as a number). Every edge `k` goes through a three-layer perceptron
  whose first layer sees the concatenation `[s, nb k]`, so its weight matrix splits into a top half `W1a`
  (applied to `s`) and a bottom half `W1b` (applied to `nb k`):

      hid1 k h = max (∑ i, nb k i * W1b i h + ∑ i, s i * W1a i h + b1 h) 0
      hid2 k j = max (∑ h, hid1 k h * W2 h j + b2 j) 0

  The node's output is the masked sum over its edges of the third (affine) layer. It can be computed in two orders:

      outEdge o = ∑ k, (∑ j, hid2 k j * W3 j o + b3 o) * mk k          -- project each edge, then aggregate
      outAgg  o = ∑ j, (∑ k, hid2 k j * mk k) * W3 j o + b3 o * ∑ k, mk k   -- aggregate, then project once

  Nothing nonlinear sits between the third layer and the mask, so the two agree wherever the numbers are real:
  `outAgg_eq_outEdge` (distributivity and an exchange of the two finite sums; on the extended reals these laws
  need every quantity to be finite, which is what the hypotheses say).
-/
import Idealize.ShloMosaic.PureOps.Ideal

noncomputable section

namespace Cert.EdgeMlp

/-- An extended real that is a real number. -/
def IsReal (x : EReal) : Prop := ∃ r : ℝ, x = (r : EReal)

section Node

variable {C K H J O : ℕ}
variable (s : Fin C → EReal) (nb : Fin K → Fin C → EReal) (mk : Fin K → EReal)
  (W1a W1b : Fin C → Fin H → EReal) (b1 : Fin H → EReal)
  (W2 : Fin H → Fin J → EReal) (b2 : Fin J → EReal)
  (W3 : Fin J → Fin O → EReal) (b3 : Fin O → EReal)

/-- First hidden layer of edge `k`: the neighbour's part, plus the node's own part, plus the bias, rectified. -/
def hid1 (k : Fin K) (h : Fin H) : EReal :=
  max (((∑ i : Fin C, nb k i * W1b i h) + ∑ i : Fin C, s i * W1a i h) + b1 h) 0

/-- Second hidden layer of edge `k`. -/
def hid2 (k : Fin K) (j : Fin J) : EReal :=
  max ((∑ h : Fin H, hid1 s nb W1a W1b b1 k h * W2 h j) + b2 j) 0

/-- The node's output, aggregating the masked second layer over the edges first and projecting once. -/
def outAgg (o : Fin O) : EReal :=
  (∑ j : Fin J, (∑ k : Fin K, hid2 s nb W1a W1b b1 W2 b2 k j * mk k) * W3 j o) + b3 o * ∑ k : Fin K, mk k

/-- The node's output, projecting every edge through the third layer and then taking the masked sum. -/
def outEdge (o : Fin O) : EReal :=
  ∑ k : Fin K, ((∑ j : Fin J, hid2 s nb W1a W1b b1 W2 b2 k j * W3 j o) + b3 o) * mk k

end Node

end Cert.EdgeMlp

end
-- ==== Proof.Spec.lean ====
/-
  The message-passing layer on whole arrays, as ONE function of the argument arrays.

  `feats` holds a feature row per node `(b, n)`; `nf` holds, per node and neighbour slot `k`, the feature row of
  that neighbour (however it was fetched: this module never asks); `valid` holds the integer mask of each slot,
  read as the number it denotes. The first weight matrix is used in two halves: rows 0–127 act on the node's own
  row, rows 128–255 on the neighbour's.

  `nodeOut … b n o` is the layer's result at node `(b, n)`, channel `o`, with every edge projected before the
  masked sum (`EdgeMlp.outEdge`), and `layer` is that as an array. `flatOut` is the same layer over arrays whose two
  node axes are merged into one row axis, with the aggregation done before the projection (`EdgeMlp.outAgg`).
-/
import Idealize.ShloMosaic.Lib.ValueIdx
import proofs.«100212_j23158463660311_2_alg».proof.Proof.EdgeMlp

noncomputable section

namespace Cert.EdgeMlp

open Idealize.ShloMosaic Idealize.ShloMosaic.ValueIdx

/-- A vector array as a function of its one coordinate. -/
def vec {n : ℕ} (v : (⟨1, ![n]⟩ : Shape).Idx → EReal) : Fin n → EReal := fun i => v (ix1 i)

/-- A matrix array as a function of its two coordinates. -/
def mat {a b : ℕ} (M : (⟨2, ![a, b]⟩ : Shape).Idx → EReal) : Fin a → Fin b → EReal := fun i j => M (ix2 i j)

/-- Rows 0–127 of the first weight matrix: the part applied to a node's own features. -/
def topHalf (W1 : (⟨2, ![256, 256]⟩ : Shape).Idx → EReal) : Fin 128 → Fin 256 → EReal :=
  fun i h => W1 (ix2 (⟨i.val, by omega⟩ : Fin 256) h)

/-- Rows 128–255 of the first weight matrix: the part applied to a neighbour's features. -/
def botHalf (W1 : (⟨2, ![256, 256]⟩ : Shape).Idx → EReal) : Fin 128 → Fin 256 → EReal :=
  fun i h => W1 (ix2 (⟨128 + i.val, by omega⟩ : Fin 256) h)

/-- The number an integer mask word denotes. -/
def maskVal (w : BitVec 32) : EReal := ((w.toInt : ℝ) : EReal)

section Layer

variable (feats : (⟨3, ![4, 4096, 128]⟩ : Shape).Idx → EReal)
  (nf : (⟨4, ![4, 4096, 16, 128]⟩ : Shape).Idx → EReal)
  (valid : (⟨3, ![4, 4096, 16]⟩ : Shape).Idx → BitVec 32)
  (W1 : (⟨2, ![256, 256]⟩ : Shape).Idx → EReal) (b1 : (⟨1, ![256]⟩ : Shape).Idx → EReal)
  (W2 : (⟨2, ![256, 256]⟩ : Shape).Idx → EReal) (b2 : (⟨1, ![256]⟩ : Shape).Idx → EReal)
  (W3 : (⟨2, ![256, 128]⟩ : Shape).Idx → EReal) (b3 : (⟨1, ![128]⟩ : Shape).Idx → EReal)

/-- The layer's result at node `(b, n)`, channel `o`: each edge through the perceptron, then the masked sum. -/
def nodeOut (b : Fin 4) (n : Fin 4096) (o : Fin 128) : EReal :=
  outEdge (fun i => feats (ix3 b n i)) (fun k i => nf (ix4 b n k i)) (fun k => maskVal (valid (ix3 b n k)))
    (topHalf W1) (botHalf W1) (vec b1) (mat W2) (vec b2) (mat W3) (vec b3) o

/-- The layer's result as an array over `(b, n, o)`. -/
def layer : (⟨3, ![4, 4096, 128]⟩ : Shape).Idx → EReal :=
  fun j => nodeOut feats nf valid W1 b1 W2 b2 W3 b3 (j 0) (j 1) (j 2)

theorem layer_apply (b : Fin 4) (n : Fin 4096) (o : Fin 128) :
    layer feats nf valid W1 b1 W2 b2 W3 b3 (ix3 b n o) = nodeOut feats nf valid W1 b1 W2 b2 W3 b3 b n o := rfl

end Layer

section Flat

variable {R : ℕ} (sf : (⟨2, ![R, 128]⟩ : Shape).Idx → EReal)
  (nff : (⟨3, ![R, 16, 128]⟩ : Shape).Idx → EReal)
  (vf : (⟨2, ![R, 16]⟩ : Shape).Idx → BitVec 32)
  (W1a W1b : (⟨2, ![128, 256]⟩ : Shape).Idx → EReal) (b1 : (⟨1, ![256]⟩ : Shape).Idx → EReal)
  (W2 : (⟨2, ![256, 256]⟩ : Shape).Idx → EReal) (b2 : (⟨1, ![256]⟩ : Shape).Idx → EReal)
  (W3 : (⟨2, ![256, 128]⟩ : Shape).Idx → EReal) (b3 : (⟨1, ![128]⟩ : Shape).Idx → EReal)

/-- The layer at row `r` of arrays whose node axes are merged, aggregating over the edges before projecting. -/
def rowOut (r : Fin R) (o : Fin 128) : EReal :=
  outAgg (fun i => sf (ix2 r i)) (fun k i => nff (ix3 r k i)) (fun k => maskVal (vf (ix2 r k)))
    (mat W1a) (mat W1b) (vec b1) (mat W2) (vec b2) (mat W3) (vec b3) o

/-- The same as an array over `(r, o)`. -/
def flatOut : (⟨2, ![R, 128]⟩ : Shape).Idx → EReal :=
  fun j => rowOut sf nff vf W1a W1b b1 W2 b2 W3 b3 (j 0) (j 1)

theorem flatOut_apply (r : Fin R) (o : Fin 128) :
    flatOut sf nff vf W1a W1b b1 W2 b2 W3 b3 (ix2 r o) = rowOut sf nff vf W1a W1b b1 W2 b2 W3 b3 r o := rfl

end Flat

end Cert.EdgeMlp

end
-- ==== Proof.RefLayer.lean ====
/-
  The reference program's result IS the layer function.

  The reference computes, for every node `(b, n)` and neighbour slot `k`, a three-layer perceptron on the
  concatenation of the node's own feature row and the gathered neighbour's row, multiplies the third layer's value by
  the slot's mask read as a number, and sums over the slots from a zero initial value. Read index by index:

      result (b, n, o)  = 0 + ∑ k, (third (b, n, k, o)) * mask (b, n, k)
      third (b, n, k, o) = ∑ j, second (b, n, k, j) * W3 (j, o) + b3 o
      second (b, n, k, j) = max (∑ h, first (b, n, k, h) * W2 (h, j) + b2 j) 0
      first (b, n, k, h)  = max (∑ q < 256, cat (b, n, k, q) * W1 (q, h) + b1 h) 0

  where `cat (b, n, k, q)` is the node's own feature `q` for `q < 128` and the gathered neighbour's feature
  `q - 128` from there on. The 256-term sum of the first layer therefore splits into its two halves of 128 terms,
  the first against rows 0–127 of `W1` and the second against rows 128–255; the node-level `hid1` adds the
  neighbour's half first, which is one use of commutativity of `+`. Everything else is the shape of the sums, so
  the equation holds on all extended reals. The gathered array is never opened: it is the argument `nf` of `layer`.
-/
import proofs.«100212_j23158463660311_2_alg».proof.Proof.Gen.ReferenceIdeal.Read
import proofs.«100212_j23158463660311_2_alg».proof.Proof.Spec

noncomputable section

namespace Cert.ReferenceIdeal.RefLayer

open Cert.ReferenceIdeal Cert.ReferenceIdeal.Gen Cert.ReferenceIdeal.Read Idealize.ShloMosaic
  Idealize.ShloMosaic.ValueIdx Cert.EdgeMlp

section Steps

variable (x2 : (⟨S4x4096x128, .f32⟩ : BufTy).Contents (Elt Ideal)) (x3 x4 : (⟨S4x4096x16, .i32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S256x128, .f32⟩ : BufTy).Contents (Elt Ideal)) (x10 : (⟨S128, .f32⟩ : BufTy).Contents (Elt Ideal))

/-! ## The concatenation of own and gathered features, read at an index

Along the last axis, positions 0–127 hold the node's own row (broadcast over the neighbour slots) and positions
128–255 the gathered neighbour's row. -/

theorem v19_left (b : Fin 4) (n : Fin 4096) (k : Fin 16) (q : Fin 128) :
    val_main_v19 (F := Ideal) x2 x3 (ix4 b n k (⟨q.val, by omega⟩ : Fin 256)) = x2 (ix3 b n q) := by
  unfold val_main_v19
  refine (concatenate_pair_apply_left 3 _ _ concatenates_S4x4096x16x128_S4x4096x16x128_S4x4096x16x256_d3 _ rfl
    (ix4 b n k q) (fun a => by
      match a with
      | ⟨0, _⟩ => rfl
      | ⟨1, _⟩ => rfl
      | ⟨2, _⟩ => rfl
      | ⟨3, _⟩ => rfl)).trans ?_
  rw [val_main_v18_apply, val_main_v17_apply]
  exact congrArg x2 (funext fun a => by
    match a with
    | ⟨0, _⟩ => rfl
    | ⟨1, _⟩ => rfl
    | ⟨2, _⟩ => rfl)

theorem v19_right (b : Fin 4) (n : Fin 4096) (k : Fin 16) (q : Fin 128) :
    val_main_v19 (F := Ideal) x2 x3 (ix4 b n k (⟨128 + q.val, by omega⟩ : Fin 256))
      = val_main_v16 (F := Ideal) x2 x3 (ix4 b n k q) := by
  unfold val_main_v19
  exact concatenate_pair_apply_right 3 _ _ concatenates_S4x4096x16x128_S4x4096x16x128_S4x4096x16x256_d3 _ rfl rfl
    (ix4 b n k q) (fun a ha => by
      match a with
      | ⟨0, _⟩ => rfl
      | ⟨1, _⟩ => rfl
      | ⟨2, _⟩ => rfl
      | ⟨3, _⟩ => exact absurd rfl ha)
    (by show q.val + 128 = 128 + q.val; omega)

/-! Operand indices of the three contractions and of the broadcasts, at explicit coordinates. -/

theorem lidx20 (b : Fin 4) (n : Fin 4096) (k : Fin 16) (h q : Fin 256) :
    lidx_main_v20 (ix4 b n k h) q = ix4 b n k q :=
  funext fun a => by match a with | ⟨0, _⟩ => rfl | ⟨1, _⟩ => rfl | ⟨2, _⟩ => rfl | ⟨3, _⟩ => rfl
theorem ridx20 (b : Fin 4) (n : Fin 4096) (k : Fin 16) (h q : Fin 256) :
    ridx_main_v20 (ix4 b n k h) q = ix2 q h :=
  funext fun a => by match a with | ⟨0, _⟩ => rfl | ⟨1, _⟩ => rfl
theorem bias256 (b : Fin 4) (n : Fin 4096) (k : Fin 16) (h : Fin 256) :
    idx_main_v21 (idx_main_v22 (ix4 b n k h)) = ix1 h :=
  funext fun a => by match a with | ⟨0, _⟩ => rfl

theorem lidx25 (b : Fin 4) (n : Fin 4096) (k : Fin 16) (j h : Fin 256) :
    lidx_main_v25 (ix4 b n k j) h = ix4 b n k h :=
  funext fun a => by match a with | ⟨0, _⟩ => rfl | ⟨1, _⟩ => rfl | ⟨2, _⟩ => rfl | ⟨3, _⟩ => rfl
theorem ridx25 (b : Fin 4) (n : Fin 4096) (k : Fin 16) (j h : Fin 256) :
    ridx_main_v25 (ix4 b n k j) h = ix2 h j :=
  funext fun a => by match a with | ⟨0, _⟩ => rfl | ⟨1, _⟩ => rfl
theorem bias256' (b : Fin 4) (n : Fin 4096) (k : Fin 16) (j : Fin 256) :
    idx_main_v26 (idx_main_v27 (ix4 b n k j)) = ix1 j :=
  funext fun a => by match a with | ⟨0, _⟩ => rfl
theorem lidx30 (b : Fin 4) (n : Fin 4096) (k : Fin 16) (o : Fin 128) (j : Fin 256) :
    lidx_main_v30 (ix4 b n k o) j = ix4 b n k j :=
  funext fun a => by match a with | ⟨0, _⟩ => rfl | ⟨1, _⟩ => rfl | ⟨2, _⟩ => rfl | ⟨3, _⟩ => rfl
theorem ridx30 (b : Fin 4) (n : Fin 4096) (k : Fin 16) (o : Fin 128) (j : Fin 256) :
    ridx_main_v30 (ix4 b n k o) j = ix2 j o :=
  funext fun a => by match a with | ⟨0, _⟩ => rfl | ⟨1, _⟩ => rfl
theorem bias128 (b : Fin 4) (n : Fin 4096) (k : Fin 16) (o : Fin 128) :
    idx_main_v31 (idx_main_v32 (ix4 b n k o)) = ix1 o :=
  funext fun a => by match a with | ⟨0, _⟩ => rfl
theorem maskIdx (b : Fin 4) (n : Fin 4096) (k : Fin 16) (o : Fin 128) :
    idx_main_v34 (idx_main_v36 (ix4 b n k o)) = ix3 b n k :=
  funext fun a => by match a with | ⟨0, _⟩ => rfl | ⟨1, _⟩ => rfl | ⟨2, _⟩ => rfl
theorem idx38 (b : Fin 4) (n : Fin 4096) (o : Fin 128) (k : Fin 16) :
    idx_main_v38 (ix3 b n o) k = ix4 b n k o :=
  funext fun a => by match a with | ⟨0, _⟩ => rfl | ⟨1, _⟩ => rfl | ⟨2, _⟩ => rfl | ⟨3, _⟩ => rfl

/-! ## The three layers at explicit coordinates -/

/-- The node's own feature row, the way the node-level functions take it. -/
abbrev selfRow (b : Fin 4) (n : Fin 4096) : Fin 128 → EReal := fun i => x2 (ix3 b n i)
/-- The gathered neighbours' feature rows of node `(b, n)`, one per slot. -/
abbrev nbRows (b : Fin 4) (n : Fin 4096) : Fin 16 → Fin 128 → EReal :=
  fun k i => val_main_v16 (F := Ideal) x2 x3 (ix4 b n k i)

/-- The first hidden layer of the reference is the node-level first layer: the 256-term sum over the concatenated
    features is the self half plus the neighbour half, which the node-level function adds in the other order. -/
theorem hid1_ref (b : Fin 4) (n : Fin 4096) (k : Fin 16) (h : Fin 256) :
    val_main_v24 (F := Ideal) x2 x3 x5 x6 (ix4 b n k h)
      = hid1 (selfRow x2 b n) (nbRows x2 x3 b n) (topHalf x5) (botHalf x5) (vec x6) k h := by
  rw [val_main_v24_apply, val_main_v23_apply, val_main_v20_apply, val_main_v22_apply, val_main_v21_apply,
    val_main_call0_v0_apply, val_main_call0_cst_apply, Ideal.ofBits_def, Ideal.ofBits_zero_f32, Ideal.maximumf_def,
    Ideal.addf_def, bias256]
  simp only [lidx20, ridx20]
  have hs := Fin.sum_univ_add (M := EReal) (a := 128) (b := 128)
    (fun q => (val_main_v19 (F := Ideal) x2 x3 (ix4 b n k q) * x5 (ix2 q h) : EReal))
  refine (congrArg (fun t => max (t + x6 (ix1 h)) 0) hs).trans ?_
  unfold hid1
  refine congrArg (fun t => max (t + vec x6 h) 0) ?_
  rw [add_comm]
  refine congrArg₂ (· + ·) (Finset.sum_congr rfl fun i _ => ?_) (Finset.sum_congr rfl fun i _ => ?_)
  · exact congrArg (· * _) (v19_right x2 x3 b n k i)
  · exact congrArg (· * _) (v19_left x2 x3 b n k i)

/-- The second hidden layer of the reference is the node-level second layer. -/
theorem hid2_ref (b : Fin 4) (n : Fin 4096) (k : Fin 16) (j : Fin 256) :
    val_main_v29 (F := Ideal) x2 x3 x5 x6 x7 x8 (ix4 b n k j)
      = hid2 (selfRow x2 b n) (nbRows x2 x3 b n) (topHalf x5) (botHalf x5) (vec x6) (mat x7) (vec x8) k j := by
  rw [val_main_v29_apply, val_main_v28_apply, val_main_v25_apply, val_main_v27_apply, val_main_v26_apply,
    val_main_call1_v0_apply, val_main_call1_cst_apply, Ideal.ofBits_def, Ideal.ofBits_zero_f32, Ideal.maximumf_def,
    Ideal.addf_def, bias256']
  simp only [lidx25, ridx25]
  unfold hid2
  refine congrArg (fun t => max (t + vec x8 j) 0) (Finset.sum_congr rfl fun h _ => ?_)
  exact congrArg (· * _) (hid1_ref x2 x3 x5 x6 b n k h)

/-- The third (affine) layer of the reference at edge `k`, channel `o`. -/
theorem edge_ref (b : Fin 4) (n : Fin 4096) (k : Fin 16) (o : Fin 128) :
    val_main_v33 (F := Ideal) x2 x3 x5 x6 x7 x8 x9 x10 (ix4 b n k o)
      = (∑ j : Fin 256, hid2 (selfRow x2 b n) (nbRows x2 x3 b n) (topHalf x5) (botHalf x5) (vec x6) (mat x7) (vec x8) k j
            * mat x9 j o) + vec x10 o := by
  rw [val_main_v33_apply, val_main_v30_apply, val_main_v32_apply, val_main_v31_apply, Ideal.addf_def, bias128]
  simp only [lidx30, ridx30]
  refine congrArg (fun t => t + vec x10 o) (Finset.sum_congr rfl fun j _ => ?_)
  exact congrArg (· * _) (hid2_ref x2 x3 x5 x6 x7 x8 b n k j)

/-- The converted, broadcast mask is the number the mask word denotes. -/
theorem mask_ref (b : Fin 4) (n : Fin 4096) (k : Fin 16) (o : Fin 128) :
    val_main_v36 (F := Ideal) x4 (ix4 b n k o) = maskVal (x4 (ix3 b n k)) := by
  rw [val_main_v36_apply, val_main_v35_apply, val_main_v34_apply, maskIdx]
  rfl

end Steps

/-- The reference's result array is the layer function of the arguments and the gathered neighbour features:
    a zero initial value plus the sum over the slots of the masked third layer, index by index. -/
theorem result_eq_layer
    (x2 : (⟨S4x4096x128, .f32⟩ : BufTy).Contents (Elt Ideal)) (x3 x4 : (⟨S4x4096x16, .i32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x128, .f32⟩ : BufTy).Contents (Elt Ideal)) (x10 : (⟨S128, .f32⟩ : BufTy).Contents (Elt Ideal)) :
    Cert.ReferenceIdeal.Read.val_main_v38 (F := Ideal) x2 x3 x4 x5 x6 x7 x8 x9 x10
      = Cert.EdgeMlp.layer x2 (Cert.ReferenceIdeal.Read.val_main_v16 (F := Ideal) x2 x3) x4 x5 x6 x7 x8 x9 x10 := by
  funext i
  obtain ⟨b, n, o, rfl⟩ : ∃ (b : Fin 4) (n : Fin 4096) (o : Fin 128), i = ix3 b n o := ⟨i 0, i 1, i 2, eq_ix3 i⟩
  rw [val_main_v38_apply, val_main_cst_apply, Ideal.ofBits_def, Ideal.ofBits_zero_f32, zero_add, layer_apply]
  unfold nodeOut outEdge
  refine Finset.sum_congr rfl fun k _ => ?_
  rw [idx38, val_main_v37_apply, Ideal.mulf_def, edge_ref, mask_ref]

end Cert.ReferenceIdeal.RefLayer

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.LibRankThreeLeadingForms.lean ====
/-
  Layout operations on rank-3 arrays whose LEADING axes are units, read at an index given by coordinates: one
  [b, c] slab broadcast over a new leading axis, a vector placed on the last axis of a [1, 1, c] array, and that array
  broadcast over both leading axes; and a MIDDLE unit axis dropped by a shape cast. A broadcast reads coordinate 0 on
  every unit axis of its operand; a shape cast keeps the row-major position.
-/
import Idealize.ShloMosaic.Lib.ValueIdx
import Idealize.ShloMosaic.Lib.Pipeline.Value

namespace Idealize.ShloMosaic.ValueIdx

open Idealize.ShloMosaic

variable {α : Type}

/-- A leading unit axis broadcast to length a: entry (r, n, k) reads entry (0, n, k). -/
theorem broadcastTo_1bc_abc_apply {a b c : ℕ} (x : (⟨3, ![1, b, c]⟩ : Shape).Idx → α)
    (h : (⟨3, ![1, b, c]⟩ : Shape).Broadcasts ⟨3, ![a, b, c]⟩) (r : Fin a) (n : Fin b) (k : Fin c) :
    broadcastTo ⟨3, ![a, b, c]⟩ x h (ix3 r n k) = x (ix3 (0 : Fin 1) n k) := by
  refine broadcastTo_apply x h (ix3 r n k) (ix3 (0 : Fin 1) n k) fun ax => ?_
  match ax with
  | ⟨0, _⟩ => rfl
  | ⟨1, _⟩ =>
    show n.val = if b = 1 then 0 else n.val
    split
    · omega
    · rfl
  | ⟨2, _⟩ =>
    show k.val = if c = 1 then 0 else k.val
    split
    · omega
    · rfl

/-- A vector placed on the last axis of a [1, 1, c] array: entry (u, v, k) is entry k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- Both leading unit axes broadcast: entry (r, n, k) reads entry (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (r : Fin a) (n : Fin b) (k : Fin c) :
    broadcastTo ⟨3, ![a, b, c]⟩ x h (ix3 r n k) = x (ix3 (0 : Fin 1) (0 : Fin 1) k) := by
  refine broadcastTo_apply x h (ix3 r n k) (ix3 (0 : Fin 1) (0 : Fin 1) k) fun ax => ?_
  match ax with
  | ⟨0, _⟩ => rfl
  | ⟨1, _⟩ => rfl
  | ⟨2, _⟩ =>
    show k.val = if c = 1 then 0 else k.val
    split
    · omega
    · rfl

/-- A middle unit axis dropped: entry (r, k) of the [a, c] array is entry (r, 0, k) of the [a, 1, c] one. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

end Idealize.ShloMosaic.ValueIdx
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.BodyValue.lean ====
/-
  What the kernel body computes, read at an index.

  One grid point handles 512 node rows. From its loaded blocks — the nodes' own features [512, 128], their neighbours'
  features [512, 16, 128], the integer mask [512, 16], and the perceptron's weights and biases — the body forms

    * the second hidden layer h2 [512, 16, 256]: both matrix products of the first layer, the neighbour part over the
      merged rows q = p·16 + k and the node's own part once per node row and repeated over the 16 slots, the bias,
      a maximum with zero, then the second layer's product over the merged rows, its bias and a maximum with zero;
    * the output block [512, 128]: h2 times the mask read as a number, summed over the 16 slots, times the last
      matrix, plus the last bias times the number of valid slots.

  Every operation is read at an index given by its coordinates: a matrix product accumulated into zero is the sum
  over the shared axis, a reduction over one axis is the sum over that axis, a shape cast keeps the row-major
  position, a broadcast reads coordinate 0 on a unit axis, and the elementwise operations act entrywise. Put together,
  the output block at (p, o) is the aggregate-then-project form of the layer at row p, channel o (`EdgeMlp.outAgg`
  through `rowOut`), term for term.
-/
import proofs.«100212_j23158463660311_2_alg».proof.Proof.Gen.KernelIdeal.Skeleton
import proofs.«100212_j23158463660311_2_alg».proof.Proof.Spec
import proofs.«100212_j23158463660311_2_alg».proof.Proof.LibRankThreeForms
import proofs.«100212_j23158463660311_2_alg».proof.Proof.LibRankThreeLeadingForms
import proofs.«100212_j23158463660311_2_alg».proof.Proof.LibColumnForms
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Cert.EdgeMlp

/-! ## The four matrix products read at an index -/

theorem matmul_self_apply_lhs0 (j : S512x256.Idx) (q : dot_S512x128_S128x256_S512x256_1_0_0_1_n_n.contr.Idx) :
    (dot_S512x128_S128x256_S512x256_1_0_0_1_n_n.lhsIdx j q 0).val = (j 0).val := by
  unfold DotDims.lhsIdx
  rw [dif_neg (show ¬(0 : Fin S512x128.rank) ∈ dot_S512x128_S128x256_S512x256_1_0_0_1_n_n.lhsBatch by decide),
    dif_pos (show (0 : Fin S512x128.rank) ∈ dot_S512x128_S128x256_S512x256_1_0_0_1_n_n.lhsNonContracting by decide)]
  rfl
theorem matmul_self_apply_lhs1 (j : S512x256.Idx) (q : dot_S512x128_S128x256_S512x256_1_0_0_1_n_n.contr.Idx) :
    (dot_S512x128_S128x256_S512x256_1_0_0_1_n_n.lhsIdx j q 1).val = (q ⟨0, by decide⟩).val :=
  dot_S512x128_S128x256_S512x256_1_0_0_1_n_n.lhsIdx_val_of_single rfl j q
theorem matmul_self_apply_rhs0 (j : S512x256.Idx) (q : dot_S512x128_S128x256_S512x256_1_0_0_1_n_n.contr.Idx) :
    (dot_S512x128_S128x256_S512x256_1_0_0_1_n_n.rhsIdx j q 0).val = (q ⟨0, by decide⟩).val :=
  dot_S512x128_S128x256_S512x256_1_0_0_1_n_n.rhsIdx_val_of_single rfl j q
theorem matmul_self_apply_rhs1 (j : S512x256.Idx) (q : dot_S512x128_S128x256_S512x256_1_0_0_1_n_n.contr.Idx) :
    (dot_S512x128_S128x256_S512x256_1_0_0_1_n_n.rhsIdx j q 1).val = (j 1).val := by
  unfold DotDims.rhsIdx
  rw [dif_neg (show ¬(1 : Fin S128x256.rank) ∈ dot_S512x128_S128x256_S512x256_1_0_0_1_n_n.rhsBatch by decide),
    dif_pos (show (1 : Fin S128x256.rank) ∈ dot_S512x128_S128x256_S512x256_1_0_0_1_n_n.rhsNonContracting by decide)]
  rfl

/-- The product of a [512, 128] block and a [128, 256] block accumulated into zero, at row `p` and column `h`: the sum over
    the shared axis of the entries' products. -/
theorem matmul_self_apply (a : FVec Ideal S512x128 .bf16) (b : FVec Ideal S128x256 .bf16) (p : Fin 512) (h : Fin 256) :
    matmul (F := Ideal) dot_S512x128_S128x256_S512x256_1_0_0_1_n_n none a b (constant (F := Ideal) S512x256 .f32 0x00000000#32) (ix2 p h)
      = ∑ i : Fin 128, a (ix2 p i) * b (ix2 i h) := by
  refine (Ideal.matmul_constant_zero_apply dot_S512x128_S128x256_S512x256_1_0_0_1_n_n none a b (ix2 p h)).trans ?_
  rw [← Equiv.sum_comp (contrEquiv1 dot_S512x128_S128x256_S512x256_1_0_0_1_n_n 128 rfl rfl).symm]
  refine Finset.sum_congr rfl fun i _ => ?_
  have hk := contrEquiv1_symm_val dot_S512x128_S128x256_S512x256_1_0_0_1_n_n 128 rfl rfl i
  have el : dot_S512x128_S128x256_S512x256_1_0_0_1_n_n.lhsIdx (ix2 p h) ((contrEquiv1 dot_S512x128_S128x256_S512x256_1_0_0_1_n_n 128 rfl rfl).symm i) = ix2 p i :=
    funext fun ax => Fin.ext (by
      match ax with
      | ⟨0, _⟩ => exact matmul_self_apply_lhs0 _ _
      | ⟨1, _⟩ => exact (matmul_self_apply_lhs1 _ _).trans hk)
  have er : dot_S512x128_S128x256_S512x256_1_0_0_1_n_n.rhsIdx (ix2 p h) ((contrEquiv1 dot_S512x128_S128x256_S512x256_1_0_0_1_n_n 128 rfl rfl).symm i) = ix2 i h :=
    funext fun ax => Fin.ext (by
      match ax with
      | ⟨0, _⟩ => exact (matmul_self_apply_rhs0 _ _).trans hk
      | ⟨1, _⟩ => exact matmul_self_apply_rhs1 _ _)
  rw [el, er]

theorem matmul_nbr_apply_lhs0 (j : S8192x256.Idx) (q : dot_S8192x128_S128x256_S8192x256_1_0_0_1_n_n.contr.Idx) :
    (dot_S8192x128_S128x256_S8192x256_1_0_0_1_n_n.lhsIdx j q 0).val = (j 0).val := by
  unfold DotDims.lhsIdx
  rw [dif_neg (show ¬(0 : Fin S8192x128.rank) ∈ dot_S8192x128_S128x256_S8192x256_1_0_0_1_n_n.lhsBatch by decide),
    dif_pos (show (0 : Fin S8192x128.rank) ∈ dot_S8192x128_S128x256_S8192x256_1_0_0_1_n_n.lhsNonContracting by decide)]
  rfl
theorem matmul_nbr_apply_lhs1 (j : S8192x256.Idx) (q : dot_S8192x128_S128x256_S8192x256_1_0_0_1_n_n.contr.Idx) :
    (dot_S8192x128_S128x256_S8192x256_1_0_0_1_n_n.lhsIdx j q 1).val = (q ⟨0, by decide⟩).val :=
  dot_S8192x128_S128x256_S8192x256_1_0_0_1_n_n.lhsIdx_val_of_single rfl j q
theorem matmul_nbr_apply_rhs0 (j : S8192x256.Idx) (q : dot_S8192x128_S128x256_S8192x256_1_0_0_1_n_n.contr.Idx) :
    (dot_S8192x128_S128x256_S8192x256_1_0_0_1_n_n.rhsIdx j q 0).val = (q ⟨0, by decide⟩).val :=
  dot_S8192x128_S128x256_S8192x256_1_0_0_1_n_n.rhsIdx_val_of_single rfl j q
theorem matmul_nbr_apply_rhs1 (j : S8192x256.Idx) (q : dot_S8192x128_S128x256_S8192x256_1_0_0_1_n_n.contr.Idx) :
    (dot_S8192x128_S128x256_S8192x256_1_0_0_1_n_n.rhsIdx j q 1).val = (j 1).val := by
  unfold DotDims.rhsIdx
  rw [dif_neg (show ¬(1 : Fin S128x256.rank) ∈ dot_S8192x128_S128x256_S8192x256_1_0_0_1_n_n.rhsBatch by decide),
    dif_pos (show (1 : Fin S128x256.rank) ∈ dot_S8192x128_S128x256_S8192x256_1_0_0_1_n_n.rhsNonContracting by decide)]
  rfl

/-- The product of a [8192, 128] block and a [128, 256] block accumulated into zero, at row `q` and column `h`: the sum over
    the shared axis of the entries' products. -/
theorem matmul_nbr_apply (a : FVec Ideal S8192x128 .bf16) (b : FVec Ideal S128x256 .bf16) (q : Fin 8192) (h : Fin 256) :
    matmul (F := Ideal) dot_S8192x128_S128x256_S8192x256_1_0_0_1_n_n none a b (constant (F := Ideal) S8192x256 .f32 0x00000000#32) (ix2 q h)
      = ∑ i : Fin 128, a (ix2 q i) * b (ix2 i h) := by
  refine (Ideal.matmul_constant_zero_apply dot_S8192x128_S128x256_S8192x256_1_0_0_1_n_n none a b (ix2 q h)).trans ?_
  rw [← Equiv.sum_comp (contrEquiv1 dot_S8192x128_S128x256_S8192x256_1_0_0_1_n_n 128 rfl rfl).symm]
  refine Finset.sum_congr rfl fun i _ => ?_
  have hk := contrEquiv1_symm_val dot_S8192x128_S128x256_S8192x256_1_0_0_1_n_n 128 rfl rfl i
  have el : dot_S8192x128_S128x256_S8192x256_1_0_0_1_n_n.lhsIdx (ix2 q h) ((contrEquiv1 dot_S8192x128_S128x256_S8192x256_1_0_0_1_n_n 128 rfl rfl).symm i) = ix2 q i :=
    funext fun ax => Fin.ext (by
      match ax with
      | ⟨0, _⟩ => exact matmul_nbr_apply_lhs0 _ _
      | ⟨1, _⟩ => exact (matmul_nbr_apply_lhs1 _ _).trans hk)
  have er : dot_S8192x128_S128x256_S8192x256_1_0_0_1_n_n.rhsIdx (ix2 q h) ((contrEquiv1 dot_S8192x128_S128x256_S8192x256_1_0_0_1_n_n 128 rfl rfl).symm i) = ix2 i h :=
    funext fun ax => Fin.ext (by
      match ax with
      | ⟨0, _⟩ => exact (matmul_nbr_apply_rhs0 _ _).trans hk
      | ⟨1, _⟩ => exact matmul_nbr_apply_rhs1 _ _)
  rw [el, er]

theorem matmul_hid_apply_lhs0 (j : S8192x256.Idx) (q : dot_S8192x256_S256x256_S8192x256_1_0_0_1_n_n.contr.Idx) :
    (dot_S8192x256_S256x256_S8192x256_1_0_0_1_n_n.lhsIdx j q 0).val = (j 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl
theorem matmul_hid_apply_lhs1 (j : S8192x256.Idx) (q : dot_S8192x256_S256x256_S8192x256_1_0_0_1_n_n.contr.Idx) :
    (dot_S8192x256_S256x256_S8192x256_1_0_0_1_n_n.lhsIdx j q 1).val = (q ⟨0, by decide⟩).val :=
  dot_S8192x256_S256x256_S8192x256_1_0_0_1_n_n.lhsIdx_val_of_single rfl j q
theorem matmul_hid_apply_rhs0 (j : S8192x256.Idx) (q : dot_S8192x256_S256x256_S8192x256_1_0_0_1_n_n.contr.Idx) :
    (dot_S8192x256_S256x256_S8192x256_1_0_0_1_n_n.rhsIdx j q 0).val = (q ⟨0, by decide⟩).val :=
  dot_S8192x256_S256x256_S8192x256_1_0_0_1_n_n.rhsIdx_val_of_single rfl j q
theorem matmul_hid_apply_rhs1 (j : S8192x256.Idx) (q : dot_S8192x256_S256x256_S8192x256_1_0_0_1_n_n.contr.Idx) :
    (dot_S8192x256_S256x256_S8192x256_1_0_0_1_n_n.rhsIdx j q 1).val = (j 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

/-- The product of a [8192, 256] block and a [256, 256] block accumulated into zero, at row `q` and column `j`: the sum over
    the shared axis of the entries' products. -/
theorem matmul_hid_apply (a : FVec Ideal S8192x256 .bf16) (b : FVec Ideal S256x256 .bf16) (q : Fin 8192) (j : Fin 256) :
    matmul (F := Ideal) dot_S8192x256_S256x256_S8192x256_1_0_0_1_n_n none a b (constant (F := Ideal) S8192x256 .f32 0x00000000#32) (ix2 q j)
      = ∑ h : Fin 256, a (ix2 q h) * b (ix2 h j) := by
  refine (Ideal.matmul_constant_zero_apply dot_S8192x256_S256x256_S8192x256_1_0_0_1_n_n none a b (ix2 q j)).trans ?_
  rw [← Equiv.sum_comp (contrEquiv1 dot_S8192x256_S256x256_S8192x256_1_0_0_1_n_n 256 rfl rfl).symm]
  refine Finset.sum_congr rfl fun h _ => ?_
  have hk := contrEquiv1_symm_val dot_S8192x256_S256x256_S8192x256_1_0_0_1_n_n 256 rfl rfl h
  have el : dot_S8192x256_S256x256_S8192x256_1_0_0_1_n_n.lhsIdx (ix2 q j) ((contrEquiv1 dot_S8192x256_S256x256_S8192x256_1_0_0_1_n_n 256 rfl rfl).symm h) = ix2 q h :=
    funext fun ax => Fin.ext (by
      match ax with
      | ⟨0, _⟩ => exact matmul_hid_apply_lhs0 _ _
      | ⟨1, _⟩ => exact (matmul_hid_apply_lhs1 _ _).trans hk)
  have er : dot_S8192x256_S256x256_S8192x256_1_0_0_1_n_n.rhsIdx (ix2 q j) ((contrEquiv1 dot_S8192x256_S256x256_S8192x256_1_0_0_1_n_n 256 rfl rfl).symm h) = ix2 h j :=
    funext fun ax => Fin.ext (by
      match ax with
      | ⟨0, _⟩ => exact (matmul_hid_apply_rhs0 _ _).trans hk
      | ⟨1, _⟩ => exact matmul_hid_apply_rhs1 _ _)
  rw [el, er]

theorem matmul_out_apply_lhs0 (j : S512x128.Idx) (q : dot_S512x256_S256x128_S512x128_1_0_0_1_n_n.contr.Idx) :
    (dot_S512x256_S256x128_S512x128_1_0_0_1_n_n.lhsIdx j q 0).val = (j 0).val := by
  unfold DotDims.lhsIdx
  rw [dif_neg (show ¬(0 : Fin S512x256.rank) ∈ dot_S512x256_S256x128_S512x128_1_0_0_1_n_n.lhsBatch by decide),
    dif_pos (show (0 : Fin S512x256.rank) ∈ dot_S512x256_S256x128_S512x128_1_0_0_1_n_n.lhsNonContracting by decide)]
  rfl
theorem matmul_out_apply_lhs1 (j : S512x128.Idx) (q : dot_S512x256_S256x128_S512x128_1_0_0_1_n_n.contr.Idx) :
    (dot_S512x256_S256x128_S512x128_1_0_0_1_n_n.lhsIdx j q 1).val = (q ⟨0, by decide⟩).val :=
  dot_S512x256_S256x128_S512x128_1_0_0_1_n_n.lhsIdx_val_of_single rfl j q
theorem matmul_out_apply_rhs0 (j : S512x128.Idx) (q : dot_S512x256_S256x128_S512x128_1_0_0_1_n_n.contr.Idx) :
    (dot_S512x256_S256x128_S512x128_1_0_0_1_n_n.rhsIdx j q 0).val = (q ⟨0, by decide⟩).val :=
  dot_S512x256_S256x128_S512x128_1_0_0_1_n_n.rhsIdx_val_of_single rfl j q
theorem matmul_out_apply_rhs1 (j : S512x128.Idx) (q : dot_S512x256_S256x128_S512x128_1_0_0_1_n_n.contr.Idx) :
    (dot_S512x256_S256x128_S512x128_1_0_0_1_n_n.rhsIdx j q 1).val = (j 1).val := by
  unfold DotDims.rhsIdx
  rw [dif_neg (show ¬(1 : Fin S256x128.rank) ∈ dot_S512x256_S256x128_S512x128_1_0_0_1_n_n.rhsBatch by decide),
    dif_pos (show (1 : Fin S256x128.rank) ∈ dot_S512x256_S256x128_S512x128_1_0_0_1_n_n.rhsNonContracting by decide)]
  rfl

/-- The product of a [512, 256] block and a [256, 128] block accumulated into zero, at row `p` and column `o`: the sum over
    the shared axis of the entries' products. -/
theorem matmul_out_apply (a : FVec Ideal S512x256 .bf16) (b : FVec Ideal S256x128 .bf16) (p : Fin 512) (o : Fin 128) :
    matmul (F := Ideal) dot_S512x256_S256x128_S512x128_1_0_0_1_n_n none a b (constant (F := Ideal) S512x128 .f32 0x00000000#32) (ix2 p o)
      = ∑ j : Fin 256, a (ix2 p j) * b (ix2 j o) := by
  refine (Ideal.matmul_constant_zero_apply dot_S512x256_S256x128_S512x128_1_0_0_1_n_n none a b (ix2 p o)).trans ?_
  rw [← Equiv.sum_comp (contrEquiv1 dot_S512x256_S256x128_S512x128_1_0_0_1_n_n 256 rfl rfl).symm]
  refine Finset.sum_congr rfl fun j _ => ?_
  have hk := contrEquiv1_symm_val dot_S512x256_S256x128_S512x128_1_0_0_1_n_n 256 rfl rfl j
  have el : dot_S512x256_S256x128_S512x128_1_0_0_1_n_n.lhsIdx (ix2 p o) ((contrEquiv1 dot_S512x256_S256x128_S512x128_1_0_0_1_n_n 256 rfl rfl).symm j) = ix2 p j :=
    funext fun ax => Fin.ext (by
      match ax with
      | ⟨0, _⟩ => exact matmul_out_apply_lhs0 _ _
      | ⟨1, _⟩ => exact (matmul_out_apply_lhs1 _ _).trans hk)
  have er : dot_S512x256_S256x128_S512x128_1_0_0_1_n_n.rhsIdx (ix2 p o) ((contrEquiv1 dot_S512x256_S256x128_S512x128_1_0_0_1_n_n 256 rfl rfl).symm j) = ix2 j o :=
    funext fun ax => Fin.ext (by
      match ax with
      | ⟨0, _⟩ => exact (matmul_out_apply_rhs0 _ _).trans hk
      | ⟨1, _⟩ => exact matmul_out_apply_rhs1 _ _)
  rw [el, er]

/-! ## The two sums over the neighbour slots -/

/-- A sum over the middle axis of a [512, 16, 256] array, at (p, j): the sum over k of the entries (p, k, j). -/
theorem reduce_mid_apply (src : FVec Ideal S512x16x256 .f32) (hred : S512x16x256.Reduces [1] S512x256)
    (hφ : FKind.Formats .f32) (hacc : (0x00000000#32 : BitVec (FTy.bits .f32)) = FKind.add.neutral .f32 hφ)
    (p : Fin 512) (j : Fin 256) :
    multiReduction (F := Ideal) .add [1] S512x256 src 0x00000000#32 hred hφ hacc (ix2 p j)
      = ∑ k : Fin 16, src (ix3 p k j) := by
  refine (Ideal.multiReduction_add_single src 0x00000000#32 hred hφ hacc (ix2 p j)).trans ?_
  refine Finset.sum_congr rfl fun k _ => congrArg src (funext fun c => Fin.ext ?_)
  match c with
  | ⟨0, _⟩ => rfl
  | ⟨1, _⟩ => rfl
  | ⟨2, _⟩ => rfl

/-- A sum over the last axis of a [512, 16] array, at p: the sum over k of the entries (p, k). -/
theorem reduce_last_apply (src : FVec Ideal S512x16 .f32) (hred : S512x16.Reduces [1] S512)
    (hφ : FKind.Formats .f32) (hacc : (0x00000000#32 : BitVec (FTy.bits .f32)) = FKind.add.neutral .f32 hφ)
    (p : Fin 512) :
    multiReduction (F := Ideal) .add [1] S512 src 0x00000000#32 hred hφ hacc (ix1 p)
      = ∑ k : Fin 16, src (ix2 p k) := by
  refine (Ideal.multiReduction_add_single src 0x00000000#32 hred hφ hacc (ix1 p)).trans ?_
  refine Finset.sum_congr rfl fun k _ => congrArg src (funext fun c => Fin.ext ?_)
  match c with
  | ⟨0, _⟩ => rfl
  | ⟨1, _⟩ => rfl

/-! ## The output block over any second hidden layer -/

/-- The integer mask block read as numbers, at (p, k). -/
theorem mask_apply (m : IVec S512x16 32) (p : Fin 512) (k : Fin 16) :
    (sitofp (F := Ideal) .f32 (shapeCast S512x16 m shapeCasts_S512x16_S512x16) : FVec Ideal S512x16 .f32) (ix2 p k)
      = maskVal (m (ix2 p k)) := by
  rw [shapeCast_self m shapeCasts_S512x16_S512x16]
  rfl

/-- The output block at (p, o), for any second hidden layer `h2`: the masked sum over the neighbour slots is taken
    first, the last layer's matrix is applied once, and the bias is counted once per valid slot. -/
theorem pay1_apply (W3 : FVec Ideal S256x128 .bf16) (b3 : FVec Ideal S128 .f32) (h2 : FVec Ideal S512x16x256 .f32)
    (m : IVec S512x16 32) (p : Fin 512) (o : Fin 128) :
    k0_pay1 (F := Ideal) W3 b3 h2 m (ix2 p o)
      = (∑ j : Fin 256, (∑ k : Fin 16, h2 (ix3 p k j) * maskVal (m (ix2 p k))) * W3 (ix2 j o))
        + b3 (ix1 o) * ∑ k : Fin 16, maskVal (m (ix2 p k)) := by
  unfold k0_pay1
  refine (addf_apply _ _ _).trans ?_
  refine congrArg₂ (· + ·) ?_ ?_
  · refine (matmul_out_apply _ _ p o).trans ?_
    refine Finset.sum_congr rfl fun j _ => congrArg (· * W3 (ix2 j o)) ?_
    refine (truncf_apply (ψ := .bf16) (φ := .f32) _ bitsLt_bf16_f32 (ix2 p j)).trans ?_
    refine (reduce_mid_apply _ _ _ _ p j).trans ?_
    refine Finset.sum_congr rfl fun k _ => ?_
    refine (mulf_apply _ _ _).trans ?_
    refine congrArg (h2 (ix3 p k j) * ·) ?_
    refine (broadcastTo_ab1_abc_apply _ _ p k j).trans ?_
    refine (shapeCast_ab_ab1_apply _ _ p k (0 : Fin 1)).trans ?_
    exact mask_apply m p k
  · refine (mulf_apply _ _ _).trans ?_
    refine congrArg₂ (· * ·) ?_ ?_
    · refine (broadcastTo_1b_ab_apply _ _ p o).trans ?_
      exact shapeCast_a_1a_apply _ _ (0 : Fin 1) o
    · refine (ValueLayout.broadcastTo_a1_ab_apply _ _ p o).trans ?_
      refine (ValueLayout.shapeCast_a_a1_apply _ _ p (0 : Fin 1)).trans ?_
      refine (reduce_last_apply _ _ _ _ p).trans ?_
      exact Finset.sum_congr rfl fun k _ => mask_apply m p k

/-! ## The second hidden layer -/

/-- The second hidden layer of the block at (p, k, j): the edge perceptron's second layer for node row `p` and
    neighbour slot `k`. The two matrix products run over the merged row q = p·16 + k. -/
theorem pay3_apply (x0 : FVec Ideal S512x128 .bf16) (x1 : FVec Ideal S512x16x128 .bf16)
    (x3 x4 : FVec Ideal S128x256 .bf16) (x5 : FVec Ideal S256 .f32) (x6 : FVec Ideal S256x256 .bf16)
    (x7 : FVec Ideal S256 .f32) (p : Fin 512) (k : Fin 16) (j : Fin 256) :
    k0_pay3 (F := Ideal) x0 x1 x3 x4 x5 x6 x7 (ix3 p k j)
      = hid2 (fun i => x0 (ix2 p i)) (fun k i => x1 (ix3 p k i)) (mat x3) (mat x4) (vec x5) (mat x6) (vec x7) k j := by
  have hq : p.val * 16 + k.val < 8192 := by have := p.isLt; have := k.isLt; omega
  unfold k0_pay3 hid2 hid1 mat vec
  refine (shapeCast_pc_abc_apply _ _ p k j (⟨p.val * 16 + k.val, hq⟩ : Fin 8192) rfl).trans ?_
  refine (maximumf_apply _ _ _).trans ?_
  refine congrArg₂ max ?_ ?_
  · refine (addf_apply _ _ _).trans ?_
    refine congrArg₂ (· + ·) ?_ ?_
    · refine (matmul_hid_apply _ _ (⟨p.val * 16 + k.val, hq⟩ : Fin 8192) j).trans ?_
      refine Finset.sum_congr rfl fun h _ => congrArg₂ (· * ·) ?_ ?_
      · refine (shapeCast_abc_pc_apply _ _ p k h (⟨p.val * 16 + k.val, hq⟩ : Fin 8192) rfl).trans ?_
        refine (truncf_apply (ψ := .bf16) (φ := .f32) _ bitsLt_bf16_f32 (ix3 p k h)).trans ?_
        refine (maximumf_apply _ _ _).trans ?_
        refine congrArg₂ max ?_ ?_
        · refine (addf_apply _ _ _).trans ?_
          refine congrArg₂ (· + ·) ?_ ?_
          · refine (addf_apply _ _ _).trans ?_
            refine congrArg₂ (· + ·) ?_ ?_
            · refine (shapeCast_pc_abc_apply _ _ p k h (⟨p.val * 16 + k.val, hq⟩ : Fin 8192) rfl).trans ?_
              refine (matmul_nbr_apply _ _ (⟨p.val * 16 + k.val, hq⟩ : Fin 8192) h).trans ?_
              refine Finset.sum_congr rfl fun i _ => congrArg₂ (· * ·) ?_ ?_
              · refine (shapeCast_abc_pc_apply _ _ p k i (⟨p.val * 16 + k.val, hq⟩ : Fin 8192) rfl).trans ?_
                exact congrFun (shapeCast_self x1 shapeCasts_S512x16x128_S512x16x128) (ix3 p k i)
              · exact congrFun (shapeCast_self x4 shapeCasts_S128x256_S128x256) (ix2 i h)
            · refine (broadcastTo_a1c_abc_apply _ _ p k h).trans ?_
              refine (shapeCast_ac_a1c_apply _ _ p (0 : Fin 1) h).trans ?_
              refine (matmul_self_apply _ _ p h).trans ?_
              refine Finset.sum_congr rfl fun i _ => congrArg₂ (· * ·) ?_ ?_
              · exact congrFun (shapeCast_self x0 shapeCasts_S512x128_S512x128) (ix2 p i)
              · exact congrFun (shapeCast_self x3 shapeCasts_S128x256_S128x256) (ix2 i h)
          · refine (broadcastTo_11c_abc_apply _ _ p k h).trans ?_
            exact shapeCast_c_11c_apply _ _ (0 : Fin 1) (0 : Fin 1) h
        · exact Ideal.ofBits_zero_f32
      · exact congrFun (shapeCast_self x6 shapeCasts_S256x256_S256x256) (ix2 h j)
    · refine (broadcastTo_1b_ab_apply _ _ (⟨p.val * 16 + k.val, hq⟩ : Fin 8192) j).trans ?_
      exact shapeCast_a_1a_apply _ _ (0 : Fin 1) j
  · exact Ideal.ofBits_zero_f32

/-! ## The body -/

/-- The body's output block at (p, o) is the layer at row `p`, channel `o`, of the loaded blocks, with the masked sum
    over the neighbour slots taken before the last projection. -/
theorem body_apply (x0 : FVec Ideal S512x128 .bf16) (x1 : FVec Ideal S512x16x128 .bf16) (x2 : IVec S512x16 32)
    (x3 x4 : FVec Ideal S128x256 .bf16) (x5 : FVec Ideal S256 .f32) (x6 : FVec Ideal S256x256 .bf16) (x7 : FVec Ideal S256 .f32)
    (x8 : FVec Ideal S256x128 .bf16) (x9 : FVec Ideal S128 .f32) (p : Fin 512) (o : Fin 128) :
    k0_pay1 (F := Ideal) (k0_pay2 (F := Ideal) x8) x9 (k0_pay3 (F := Ideal) x0 x1 x3 x4 x5 x6 x7) x2 (ix2 p o)
      = rowOut (R := 512) x0 x1 x2 x3 x4 x5 x6 x7 x8 x9 p o := by
  refine (pay1_apply _ _ _ x2 p o).trans ?_
  unfold rowOut outAgg
  refine congrArg₂ (· + ·) ?_ ?_
  · refine Finset.sum_congr rfl fun j _ => congrArg₂ (· * ·) ?_ ?_
    · exact Finset.sum_congr rfl fun k _ =>
        congrArg (· * maskVal (x2 (ix2 p k))) (pay3_apply x0 x1 x3 x4 x5 x6 x7 p k j)
    · exact congrFun (shapeCast_self x8 shapeCasts_S256x128_S256x128) (ix2 j o)
  · rfl

end Cert.KernelIdeal.BodyValue

end
-- ==== Proof.LibRankFourMerge.lean ====
/-
  A rank-4 array whose two leading axes are merged by a shape cast, read at coordinates.
-/
import Idealize.ShloMosaic.Lib.ValueIdx
import Idealize.ShloMosaic.Lib.Pipeline.Value

namespace Idealize.ShloMosaic.ValueIdx

open Idealize.ShloMosaic

variable {α : Type}

/-- Merging the two leading axes of an [a, b, c, d] array into [a·b, c, d]: entry (r·b + n, k, l) of the result is
    entry (r, n, k, l) of the source (both are the same position in row-major order). -/
theorem shapeCast_abcd_pcd_apply {a b c d ab : ℕ} (x : (⟨4, ![a, b, c, d]⟩ : Shape).Idx → α)
    (h : (⟨4, ![a, b, c, d]⟩ : Shape).ShapeCasts ⟨3, ![ab, c, d]⟩) (r : Fin a) (n : Fin b) (k : Fin c) (l : Fin d) (p : Fin ab)
    (hp : p.val = r.val * b + n.val) : shapeCast ⟨3, ![ab, c, d]⟩ x h (ix3 p k l) = x (ix4 r n k l) :=
  shapeCast_apply x h _ _ (by
    rw [Shape.rowMajor_val_four, Shape.rowMajor_val_three]
    show ((r.val * b + n.val) * c + k.val) * d + l.val = (p.val * c + k.val) * d + l.val
    rw [hp])

end Idealize.ShloMosaic.ValueIdx
-- ==== Proof.RegionEntry.lean ====
/-
  What the region finds in each of its arrays, as functions of @main's arguments.

  Before the kernel is launched the host re-lays its operands: the feature array [4, 4096, 128] and the
  gathered neighbour features [4, 4096, 16, 128] have their two node axes merged into one row axis of 16384 rows
  (row r = b·4096 + n), the mask likewise; the first weight matrix is cut into its rows 0–127 and 128–255; every
  change of float format is the identity on the extended reals. The gathered neighbour features are the same
  gather, of the same index array computed from the neighbour-index argument, as the reference's: they are named by
  the reference's own term and never opened.

  `regionOut` is the layer over those merged-row arrays (`EdgeMlp.flatOut`), and `regionOut_apply` reads it at
  row b·4096 + n in terms of the arguments at node (b, n).
-/
import proofs.«100212_j23158463660311_2_alg».proof.Proof.Gen.KernelIdeal.Frame
import proofs.«100212_j23158463660311_2_alg».proof.Proof.Gen.ReferenceIdeal.Read
import Idealize.ShloMosaic.Lib.StableHlo.Run
import Idealize.ShloMosaic.Lib.Pipeline.Value
import Idealize.ShloMosaic.Lib.ValueIdx
import proofs.«100212_j23158463660311_2_alg».proof.Proof.LibRankThreeForms
import proofs.«100212_j23158463660311_2_alg».proof.Proof.LibRankFourMerge
import proofs.«100212_j23158463660311_2_alg».proof.Proof.Spec

noncomputable section

namespace Cert.KernelIdeal.Entry

open Cert.KernelIdeal Cert.KernelIdeal.Gen Idealize.ShloMosaic Idealize.ShloMosaic.TcCoe Idealize.SL.Sem
  Idealize.ShloMosaic.StableHlo Idealize.ShloMosaic.ValueIdx Cert.EdgeMlp

/-! ## The host operations before the region, buffer by buffer -/

section AfterHost

variable (Vl : Valuation τ sig (Elt Ideal))

/-- The node's own features with the node axes merged. -/
theorem after_self :
    after (hostOps0 (F := Ideal)) Vl (main_v18 : DevRef τ sig)
      = (shapeCast (α := EReal) S16384x128 (Vl (main_arg2 : DevRef τ sig)) shapeCasts_S4x4096x128_S16384x128
          : (⟨S16384x128, .bf16⟩ : BufTy).Contents (Elt Ideal)) := by
  after_results
  rfl

set_option maxHeartbeats 1600000 in
/-- The gathered neighbour features with the node axes merged: the gather is the reference's, of the same index array. -/
theorem after_nbr :
    after (hostOps0 (F := Ideal)) Vl (main_v19 : DevRef τ sig)
      = (shapeCast (α := EReal) S16384x16x128
          (Cert.ReferenceIdeal.Read.val_main_v16 (F := Ideal) (Vl (main_arg2 : DevRef τ sig)) (Vl (main_arg3 : DevRef τ sig)))
          shapeCasts_S4x4096x16x128_S16384x16x128 : (⟨S16384x16x128, .bf16⟩ : BufTy).Contents (Elt Ideal)) := by
  after_results_simp
  rfl

/-- The mask words with the node axes merged. -/
theorem after_mask :
    after (hostOps0 (F := Ideal)) Vl (main_v20 : DevRef τ sig)
      = shapeCast S16384x16 (Vl (main_arg4 : DevRef τ sig)) shapeCasts_S4x4096x16_S16384x16 := by
  after_results
  rfl

/-- Rows 0–127 of the first weight matrix. -/
theorem after_w1a :
    after (hostOps0 (F := Ideal)) Vl (main_v22 : DevRef τ sig)
      = (extractStridedSlice (α := EReal) S128x256 ![0, 0] (Vl (main_arg5 : DevRef τ sig)) slices_S256x256_S128x256_0_0
          : (⟨S128x256, .bf16⟩ : BufTy).Contents (Elt Ideal)) := by
  after_results
  rfl

/-- Rows 128–255 of the first weight matrix. -/
theorem after_w1b :
    after (hostOps0 (F := Ideal)) Vl (main_v24 : DevRef τ sig)
      = (extractStridedSlice (α := EReal) S128x256 ![128, 0] (Vl (main_arg5 : DevRef τ sig)) slices_S256x256_S128x256_128_0
          : (⟨S128x256, .bf16⟩ : BufTy).Contents (Elt Ideal)) := by
  after_results
  rfl

/-- The second weight matrix, unchanged. -/
theorem after_w2 :
    after (hostOps0 (F := Ideal)) Vl (main_v25 : DevRef τ sig)
      = ((Vl (main_arg7 : DevRef τ sig) : S256x256.Idx → EReal) : (⟨S256x256, .bf16⟩ : BufTy).Contents (Elt Ideal)) := by
  after_results
  rfl

/-- The third weight matrix, unchanged. -/
theorem after_w3 :
    after (hostOps0 (F := Ideal)) Vl (main_v26 : DevRef τ sig)
      = ((Vl (main_arg9 : DevRef τ sig) : S256x128.Idx → EReal) : (⟨S256x128, .bf16⟩ : BufTy).Contents (Elt Ideal)) := by
  after_results
  rfl

end AfterHost

/-! ## The argument arrays, and the region's arrays read at a row -/

section Region

variable (m : (ℓ : Loc nD τ sig) → Buf (Elt Ideal) ℓ) (c : Dev nD)

/-- The node features argument. -/
abbrev aFeats : S4x4096x128.Idx → EReal := m ((c : Thread nD τ).loc main_arg2)
/-- The neighbour-index argument. -/
abbrev aNbrIdx : IVec S4x4096x16 32 := m ((c : Thread nD τ).loc main_arg3)
/-- The mask argument. -/
abbrev aValid : IVec S4x4096x16 32 := m ((c : Thread nD τ).loc main_arg4)
/-- The three weight matrices and biases. -/
abbrev aW1 : S256x256.Idx → EReal := m ((c : Thread nD τ).loc main_arg5)
abbrev aB1 : S256.Idx → EReal := m ((c : Thread nD τ).loc main_arg6)
abbrev aW2 : S256x256.Idx → EReal := m ((c : Thread nD τ).loc main_arg7)
abbrev aB2 : S256.Idx → EReal := m ((c : Thread nD τ).loc main_arg8)
abbrev aW3 : S256x128.Idx → EReal := m ((c : Thread nD τ).loc main_arg9)
abbrev aB3 : S128.Idx → EReal := m ((c : Thread nD τ).loc main_arg10)
/-- The gathered neighbour features: entry (b, n, k, ·) is the feature row of node (b, n)'s k-th neighbour. -/
abbrev aNbr : S4x4096x16x128.Idx → EReal :=
  Cert.ReferenceIdeal.Read.val_main_v16 (F := Ideal) (aFeats m c) (aNbrIdx m c)

/-- Row b·4096 + n of the merged feature array is node (b, n)'s feature row. -/
theorem V_self_apply (b : Fin 4) (n : Fin 4096) (i : Fin 128) (r : Fin 16384) (hr : r.val = b.val * 4096 + n.val) :
    (V m c main_v18 : S16384x128.Idx → EReal) (ix2 r i) = aFeats m c (ix3 b n i) := by
  show after (hostOps0 (F := Ideal)) (fun b => m (c, b)) (main_v18 : DevRef τ sig) (ix2 r i) = _
  rw [after_self]
  exact shapeCast_abc_pc_apply _ _ b n i r hr

/-- Row b·4096 + n of the merged neighbour array holds node (b, n)'s gathered neighbour rows. -/
theorem V_nbr_apply (b : Fin 4) (n : Fin 4096) (k : Fin 16) (i : Fin 128) (r : Fin 16384) (hr : r.val = b.val * 4096 + n.val) :
    (V m c main_v19 : S16384x16x128.Idx → EReal) (ix3 r k i) = aNbr m c (ix4 b n k i) := by
  show after (hostOps0 (F := Ideal)) (fun b => m (c, b)) (main_v19 : DevRef τ sig) (ix3 r k i) = _
  rw [after_nbr]
  exact shapeCast_abcd_pcd_apply _ _ b n k i r hr

/-- Row b·4096 + n of the merged mask array holds node (b, n)'s mask words. -/
theorem V_mask_apply (b : Fin 4) (n : Fin 4096) (k : Fin 16) (r : Fin 16384) (hr : r.val = b.val * 4096 + n.val) :
    (V m c main_v20 : IVec S16384x16 32) (ix2 r k) = aValid m c (ix3 b n k) := by
  show after (hostOps0 (F := Ideal)) (fun b => m (c, b)) (main_v20 : DevRef τ sig) (ix2 r k) = _
  rw [after_mask]
  exact shapeCast_abc_pc_apply _ _ b n k r hr

/-- The first slice of the first weight matrix is its rows 0–127. -/
theorem V_w1a_eq : mat (V m c main_v22 : S128x256.Idx → EReal) = topHalf (aW1 m c) := by
  funext i h
  show after (hostOps0 (F := Ideal)) (fun b => m (c, b)) (main_v22 : DevRef τ sig) (ix2 i h) = _
  rw [after_w1a]
  refine extractStridedSlice_apply _ _ _ _ _ (fun a => ?_)
  match a with
  | ⟨0, _⟩ => show i.val = 0 + i.val; omega
  | ⟨1, _⟩ => show h.val = 0 + h.val; omega

/-- The second slice of the first weight matrix is its rows 128–255. -/
theorem V_w1b_eq : mat (V m c main_v24 : S128x256.Idx → EReal) = botHalf (aW1 m c) := by
  funext i h
  show after (hostOps0 (F := Ideal)) (fun b => m (c, b)) (main_v24 : DevRef τ sig) (ix2 i h) = _
  rw [after_w1b]
  refine extractStridedSlice_apply _ _ _ _ _ (fun a => ?_)
  match a with
  | ⟨0, _⟩ => show 128 + i.val = 128 + i.val; rfl
  | ⟨1, _⟩ => show h.val = 0 + h.val; omega

theorem V_w2_eq : (V m c main_v25 : S256x256.Idx → EReal) = aW2 m c := by
  show after (hostOps0 (F := Ideal)) (fun b => m (c, b)) (main_v25 : DevRef τ sig) = _
  rw [after_w2]

theorem V_w3_eq : (V m c main_v26 : S256x128.Idx → EReal) = aW3 m c := by
  show after (hostOps0 (F := Ideal)) (fun b => m (c, b)) (main_v26 : DevRef τ sig) = _
  rw [after_w3]

/-- The layer over the region's merged-row arrays: what the kernel's result array is shown to hold. -/
def regionOut : S16384x128.Idx → EReal :=
  flatOut (V m c main_v18 : S16384x128.Idx → EReal) (V m c main_v19 : S16384x16x128.Idx → EReal) (V m c main_v20 : IVec S16384x16 32)
    (V m c main_v22 : S128x256.Idx → EReal) (V m c main_v24 : S128x256.Idx → EReal) (V m c main_arg6 : S256.Idx → EReal)
    (V m c main_v25 : S256x256.Idx → EReal) (V m c main_arg8 : S256.Idx → EReal) (V m c main_v26 : S256x128.Idx → EReal)
    (V m c main_arg10 : S128.Idx → EReal)

/-- `regionOut` at row b·4096 + n, in terms of the arguments at node (b, n): the aggregate-then-project form. -/
theorem regionOut_apply (b : Fin 4) (n : Fin 4096) (o : Fin 128) (r : Fin 16384) (hr : r.val = b.val * 4096 + n.val) :
    regionOut m c (ix2 r o)
      = outAgg (fun i => aFeats m c (ix3 b n i)) (fun k i => aNbr m c (ix4 b n k i)) (fun k => maskVal (aValid m c (ix3 b n k)))
          (topHalf (aW1 m c)) (botHalf (aW1 m c)) (vec (aB1 m c)) (mat (aW2 m c)) (vec (aB2 m c)) (mat (aW3 m c)) (vec (aB3 m c)) o := by
  unfold regionOut
  rw [flatOut_apply]
  unfold rowOut
  rw [V_w1a_eq, V_w1b_eq, V_w2_eq, V_w3_eq, V_main_arg6, V_main_arg8, V_main_arg10]
  have h1 : (fun i => (V m c main_v18 : S16384x128.Idx → EReal) (ix2 r i)) = fun i => aFeats m c (ix3 b n i) :=
    funext fun i => V_self_apply m c b n i r hr
  have h2 : (fun k i => (V m c main_v19 : S16384x16x128.Idx → EReal) (ix3 r k i)) = fun k i => aNbr m c (ix4 b n k i) :=
    funext fun k => funext fun i => V_nbr_apply m c b n k i r hr
  have h3 : (fun k => maskVal ((V m c main_v20 : IVec S16384x16 32) (ix2 r k))) = fun k => maskVal (aValid m c (ix3 b n k)) :=
    funext fun k => congrArg maskVal (V_mask_apply m c b n k r hr)
  rw [h1, h2, h3]

end Region

end Cert.KernelIdeal.Entry

end
-- ==== Proof.RegionValue.lean ====
/-
  The kernel's result array after the region, as ONE function of the region's entry arrays.

  The region runs the body at 32 points; point t stages rows 512·t … 512·t + 511 of the three row-indexed arrays
  (features, gathered neighbour features, mask) and the whole of each weight array, and writes back rows
  512·t … 512·t + 511 of the result. The body's value at row p of its block (`BodyValue.body_apply`) is the layer at
  that row of the blocks, hence the layer at row 512·t + p of the arrays (`flushed_eq`); the 32 blocks tile the
  16384 rows (`cover`), so the result array ends holding `Entry.regionOut` (`final`).
-/
import proofs.«100212_j23158463660311_2_alg».proof.Proof.Gen.KernelIdeal.Frame
import proofs.«100212_j23158463660311_2_alg».proof.Proof.BodyValue
import proofs.«100212_j23158463660311_2_alg».proof.Proof.RegionEntry
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
  Idealize.ShloMosaic.ValueIdx Cert.EdgeMlp Cert.KernelIdeal.Entry Cert.KernelIdeal.BodyValue
open Idealize.ShloMosaic.Pipeline (Dat Cfg Window)

/-- The layer at a row depends only on that row of the three row-indexed arrays and on the weights. -/
theorem rowOut_congr {R R' : ℕ}
    (sf : (⟨2, ![R, 128]⟩ : Shape).Idx → EReal) (nff : (⟨3, ![R, 16, 128]⟩ : Shape).Idx → EReal) (vf : (⟨2, ![R, 16]⟩ : Shape).Idx → BitVec 32)
    (sf' : (⟨2, ![R', 128]⟩ : Shape).Idx → EReal) (nff' : (⟨3, ![R', 16, 128]⟩ : Shape).Idx → EReal) (vf' : (⟨2, ![R', 16]⟩ : Shape).Idx → BitVec 32)
    (W1a W1b W1a' W1b' : (⟨2, ![128, 256]⟩ : Shape).Idx → EReal) (b1 b1' : (⟨1, ![256]⟩ : Shape).Idx → EReal)
    (W2 W2' : (⟨2, ![256, 256]⟩ : Shape).Idx → EReal) (b2 b2' : (⟨1, ![256]⟩ : Shape).Idx → EReal)
    (W3 W3' : (⟨2, ![256, 128]⟩ : Shape).Idx → EReal) (b3 b3' : (⟨1, ![128]⟩ : Shape).Idx → EReal)
    (r : Fin R) (r' : Fin R') (o : Fin 128)
    (h0 : ∀ i, sf (ix2 r i) = sf' (ix2 r' i)) (h1 : ∀ k i, nff (ix3 r k i) = nff' (ix3 r' k i)) (h2 : ∀ k, vf (ix2 r k) = vf' (ix2 r' k))
    (e3 : W1a = W1a') (e4 : W1b = W1b') (e5 : b1 = b1') (e6 : W2 = W2') (e7 : b2 = b2') (e8 : W3 = W3') (e9 : b3 = b3') :
    rowOut sf nff vf W1a W1b b1 W2 b2 W3 b3 r o = rowOut sf' nff' vf' W1a' W1b' b1' W2' b2' W3' b3' r' o := by
  subst e3 e4 e5 e6 e7 e8 e9
  unfold rowOut
  have g0 : (fun i => sf (ix2 r i)) = fun i => sf' (ix2 r' i) := funext h0
  have g1 : (fun k i => nff (ix3 r k i)) = fun k i => nff' (ix3 r' k i) := funext fun k => funext (h1 k)
  have g2 : (fun k => maskVal (vf (ix2 r k))) = fun k => maskVal (vf' (ix2 r' k)) := funext fun k => congrArg maskVal (h2 k)
  rw [g0, g1, g2]

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the three row-indexed inputs and the output are at block row t,
    every other block index is 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- Every block row of the result is some point's. -/
theorem idx_onto : ∀ q : Fin 32, ∃ t : Fin cfg0.N, win0_10.index t (0 : Fin 2) = q.val ∧ win0_10.index t (1 : Fin 2) = 0 :=
  (by decide +kernel : ∀ q : Fin 32, ∃ t : Fin grid0.N, win0_10.index t (0 : Fin 2) = q.val ∧ win0_10.index t (1 : Fin 2) = 0)

/-- Point t's row p is row 512·t + p of the arrays. -/
def row (t : Fin cfg0.N) (p : Fin 512) : Fin 16384 :=
  ⟨t.val * 512 + p.val, by have ht : t.val < 32 := Nat.lt_of_lt_of_eq t.isLt N_0; have hp := p.isLt; omega⟩

theorem row_val (t : Fin cfg0.N) (p : Fin 512) : (row t p).val = t.val * 512 + p.val := rfl

/-! ### Each window's block at a point, read off its array -/

theorem blk0_apply (c : Dev nD) (t : Fin cfg0.N) (p : Fin 512) (i : Fin 128) :
    iblk m c 0 t (ix2 p i) = (V m c main_v18 : S16384x128.Idx → EReal) (ix2 (row t p) i) := by
  obtain ⟨e00, e01, -⟩ := idx_facts t
  show (V m c main_v18 : S16384x128.Idx → EReal) (((cfg0.win 0).blk t).view.emb (ix2 p i)) = _
  refine congrArg _ (funext fun a => Fin.ext ?_)
  match a with
  | ⟨0, _⟩ => show win0_0.index t (0 : Fin 2) * 512 + 1 * p.val = t.val * 512 + p.val; rw [e00]; omega
  | ⟨1, _⟩ => show win0_0.index t (1 : Fin 2) * 128 + 1 * i.val = i.val; rw [e01]; omega

theorem blk1_apply (c : Dev nD) (t : Fin cfg0.N) (p : Fin 512) (k : Fin 16) (i : Fin 128) :
    iblk m c 1 t (ix3 p k i) = (V m c main_v19 : S16384x16x128.Idx → EReal) (ix3 (row t p) k i) := by
  obtain ⟨-, -, e10, e11, e12, -⟩ := idx_facts t
  show (V m c main_v19 : S16384x16x128.Idx → EReal) (((cfg0.win 1).blk t).view.emb (ix3 p k i)) = _
  refine congrArg _ (funext fun a => Fin.ext ?_)
  match a with
  | ⟨0, _⟩ => show win0_1.index t (0 : Fin 3) * 512 + 1 * p.val = t.val * 512 + p.val; rw [e10]; omega
  | ⟨1, _⟩ => show win0_1.index t (1 : Fin 3) * 16 + 1 * k.val = k.val; rw [e11]; omega
  | ⟨2, _⟩ => show win0_1.index t (2 : Fin 3) * 128 + 1 * i.val = i.val; rw [e12]; omega

theorem blk2_apply (c : Dev nD) (t : Fin cfg0.N) (p : Fin 512) (k : Fin 16) :
    iblk m c 2 t (ix2 p k) = (V m c main_v20 : IVec S16384x16 32) (ix2 (row t p) k) := by
  obtain ⟨-, -, -, -, -, e20, e21, -⟩ := idx_facts t
  show (V m c main_v20 : IVec S16384x16 32) (((cfg0.win 2).blk t).view.emb (ix2 p k)) = _
  refine congrArg _ (funext fun a => Fin.ext ?_)
  match a with
  | ⟨0, _⟩ => show win0_2.index t (0 : Fin 2) * 512 + 1 * p.val = t.val * 512 + p.val; rw [e20]; omega
  | ⟨1, _⟩ => show win0_2.index t (1 : Fin 2) * 16 + 1 * k.val = k.val; rw [e21]; omega

theorem blk3_eq (c : Dev nD) (t : Fin cfg0.N) : iblk m c 3 t = (V m c main_v22 : S128x256.Idx → EReal) := by
  obtain ⟨-, -, -, -, -, -, -, e30, e31, -⟩ := idx_facts t
  funext y
  show (V m c main_v22 : S128x256.Idx → EReal) (((cfg0.win 3).blk t).view.emb y) = _
  refine congrArg _ (funext fun a => Fin.ext ?_)
  match a with
  | ⟨0, _⟩ => show win0_3.index t (0 : Fin 2) * 128 + 1 * (y 0).val = (y 0).val; rw [e30]; omega
  | ⟨1, _⟩ => show win0_3.index t (1 : Fin 2) * 256 + 1 * (y 1).val = (y 1).val; rw [e31]; omega

theorem blk4_eq (c : Dev nD) (t : Fin cfg0.N) : iblk m c 4 t = (V m c main_v24 : S128x256.Idx → EReal) := by
  obtain ⟨-, -, -, -, -, -, -, -, -, e40, e41, -⟩ := idx_facts t
  funext y
  show (V m c main_v24 : S128x256.Idx → EReal) (((cfg0.win 4).blk t).view.emb y) = _
  refine congrArg _ (funext fun a => Fin.ext ?_)
  match a with
  | ⟨0, _⟩ => show win0_4.index t (0 : Fin 2) * 128 + 1 * (y 0).val = (y 0).val; rw [e40]; omega
  | ⟨1, _⟩ => show win0_4.index t (1 : Fin 2) * 256 + 1 * (y 1).val = (y 1).val; rw [e41]; omega

theorem blk5_eq (c : Dev nD) (t : Fin cfg0.N) : iblk m c 5 t = (V m c main_arg6 : S256.Idx → EReal) := by
  obtain ⟨-, -, -, -, -, -, -, -, -, -, -, e50, -⟩ := idx_facts t
  funext y
  show (V m c main_arg6 : S256.Idx → EReal) (((cfg0.win 5).blk t).view.emb y) = _
  refine congrArg _ (funext fun a => Fin.ext ?_)
  match a with
  | ⟨0, _⟩ => show win0_5.index t (0 : Fin 1) * 256 + 1 * (y 0).val = (y 0).val; rw [e50]; omega

theorem blk6_eq (c : Dev nD) (t : Fin cfg0.N) : iblk m c 6 t = (V m c main_v25 : S256x256.Idx → EReal) := by
  obtain ⟨-, -, -, -, -, -, -, -, -, -, -, -, e60, e61, -⟩ := idx_facts t
  funext y
  show (V m c main_v25 : S256x256.Idx → EReal) (((cfg0.win 6).blk t).view.emb y) = _
  refine congrArg _ (funext fun a => Fin.ext ?_)
  match a with
  | ⟨0, _⟩ => show win0_6.index t (0 : Fin 2) * 256 + 1 * (y 0).val = (y 0).val; rw [e60]; omega
  | ⟨1, _⟩ => show win0_6.index t (1 : Fin 2) * 256 + 1 * (y 1).val = (y 1).val; rw [e61]; omega

theorem blk7_eq (c : Dev nD) (t : Fin cfg0.N) : iblk m c 7 t = (V m c main_arg8 : S256.Idx → EReal) := by
  obtain ⟨-, -, -, -, -, -, -, -, -, -, -, -, -, -, e70, -⟩ := idx_facts t
  funext y
  show (V m c main_arg8 : S256.Idx → EReal) (((cfg0.win 7).blk t).view.emb y) = _
  refine congrArg _ (funext fun a => Fin.ext ?_)
  match a with
  | ⟨0, _⟩ => show win0_7.index t (0 : Fin 1) * 256 + 1 * (y 0).val = (y 0).val; rw [e70]; omega

theorem blk8_eq (c : Dev nD) (t : Fin cfg0.N) : iblk m c 8 t = (V m c main_v26 : S256x128.Idx → EReal) := by
  obtain ⟨-, -, -, -, -, -, -, -, -, -, -, -, -, -, -, e80, e81, -⟩ := idx_facts t
  funext y
  show (V m c main_v26 : S256x128.Idx → EReal) (((cfg0.win 8).blk t).view.emb y) = _
  refine congrArg _ (funext fun a => Fin.ext ?_)
  match a with
  | ⟨0, _⟩ => show win0_8.index t (0 : Fin 2) * 256 + 1 * (y 0).val = (y 0).val; rw [e80]; omega
  | ⟨1, _⟩ => show win0_8.index t (1 : Fin 2) * 128 + 1 * (y 1).val = (y 1).val; rw [e81]; omega

theorem blk9_eq (c : Dev nD) (t : Fin cfg0.N) : iblk m c 9 t = (V m c main_arg10 : S128.Idx → EReal) := by
  obtain ⟨-, -, -, -, -, -, -, -, -, -, -, -, -, -, -, -, -, e90, -⟩ := idx_facts t
  funext y
  show (V m c main_arg10 : S128.Idx → EReal) (((cfg0.win 9).blk t).view.emb y) = _
  refine congrArg _ (funext fun a => Fin.ext ?_)
  match a with
  | ⟨0, _⟩ => show win0_9.index t (0 : Fin 1) * 128 + 1 * (y 0).val = (y 0).val; rw [e90]; omega

/-- The result's block at point t, at (p, o), is the result array at row 512·t + p. -/
theorem blk10_emb (t : Fin cfg0.N) (p : Fin 512) (o : Fin 128) :
    ((cfg0.win 10).blk t).view.emb (ix2 p o) = ix2 (row t p) o := by
  obtain ⟨-, -, -, -, -, -, -, -, -, -, -, -, -, -, -, -, -, -, eA0, eA1⟩ := idx_facts t
  funext a; apply Fin.ext
  match a with
  | ⟨0, _⟩ => show win0_10.index t (0 : Fin 2) * 512 + 1 * p.val = t.val * 512 + p.val; rw [eA0]; omega
  | ⟨1, _⟩ => show win0_10.index t (1 : Fin 2) * 128 + 1 * o.val = o.val; rw [eA1]; omega

/-- The body's value at point t, row p, is the layer at row 512·t + p of the region's arrays. -/
theorem body_at_point (c : Dev nD) (t : Fin cfg0.N) (p : Fin 512) (o : Fin 128) :
    k0_pay1 (F := Ideal) (k0_pay2 (F := Ideal) (iblk m c 8 t)) (iblk m c 9 t)
        (k0_pay3 (F := Ideal) (iblk m c 0 t) (iblk m c 1 t) (iblk m c 3 t) (iblk m c 4 t) (iblk m c 5 t) (iblk m c 6 t) (iblk m c 7 t))
        (iblk m c 2 t) (ix2 p o)
      = regionOut m c (ix2 (row t p) o) := by
  refine (body_apply (iblk m c 0 t) (iblk m c 1 t) (iblk m c 2 t) (iblk m c 3 t) (iblk m c 4 t) (iblk m c 5 t) (iblk m c 6 t)
    (iblk m c 7 t) (iblk m c 8 t) (iblk m c 9 t) p o).trans ?_
  unfold regionOut
  rw [flatOut_apply]
  exact rowOut_congr (R := 512) (R' := 16384) (iblk m c 0 t) (iblk m c 1 t) (iblk m c 2 t)
    (V m c main_v18 : S16384x128.Idx → EReal) (V m c main_v19 : S16384x16x128.Idx → EReal) (V m c main_v20 : IVec S16384x16 32)
    (iblk m c 3 t) (iblk m c 4 t) (V m c main_v22 : S128x256.Idx → EReal) (V m c main_v24 : S128x256.Idx → EReal)
    (iblk m c 5 t) (V m c main_arg6 : S256.Idx → EReal) (iblk m c 6 t) (V m c main_v25 : S256x256.Idx → EReal)
    (iblk m c 7 t) (V m c main_arg8 : S256.Idx → EReal) (iblk m c 8 t) (V m c main_v26 : S256x128.Idx → EReal)
    (iblk m c 9 t) (V m c main_arg10 : S128.Idx → EReal) p (row t p) o
    (fun i => blk0_apply m c t p i) (fun k i => blk1_apply m c t p k i) (fun k => blk2_apply m c t p k)
    (blk3_eq m c t) (blk4_eq m c t) (blk5_eq m c t) (blk6_eq m c t) (blk7_eq m c t) (blk8_eq m c t) (blk9_eq m c t)

/-- WHAT POINT t WRITES BACK is block t of `regionOut`. -/
theorem flushed_eq (c : Dev nD) (t : Fin cfg0.N) :
    (dats m 0 c).flushed 10 t = ((cfg0.win 10).blk t).view.read (Elt Ideal) (regionOut m c) := by
  show (cfg0.win 10).cut (grid0.coords t) ((dats m 0 c).after 10 t) = _
  rw [after0_10]
  unfold out0_10
  rw [View.canon_unit_zero hz2]
  simp only [View.ld_unit_zero (S := S512x128) hz2, View.ld_unit_zero (S := S512x16x128) hz3, View.ld_unit_zero (S := S128x256) hz2,
    View.ld_unit_zero (S := S256) hz1, View.ld_unit_zero (S := S256x256) hz2, View.ld_unit_zero (S := S256x128) hz2,
    View.ld_unit_zero (S := S128) hz1, View.ld_unit_zero (S := S512x16) hz2]
  funext j
  obtain ⟨p, o, rfl⟩ : ∃ (p : Fin 512) (o : Fin 128), j = ix2 p o := ⟨j 0, j 1, eq_ix2 j⟩
  show k0_pay1 (F := Ideal) (k0_pay2 (F := Ideal) (iblk m c 8 t)) (iblk m c 9 t)
        (k0_pay3 (F := Ideal) (iblk m c 0 t) (iblk m c 1 t) (iblk m c 3 t) (iblk m c 4 t) (iblk m c 5 t) (iblk m c 6 t) (iblk m c 7 t))
        (iblk m c 2 t) (ix2 p o)
      = regionOut m c (((cfg0.win 10).blk t).view.emb (ix2 p o))
  rw [blk10_emb]
  exact body_at_point m c t p o

/-- An index of the result array is in point t's block iff each coordinate is in the block's range on its axis. -/
theorem mem_blk (t : Fin cfg0.N) (i : S16384x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v27).slice (win0_10.rect t)).set ↔ _
  rw [View.set_slice_whole, Rect.mem_set_unit]
  exact Iff.rfl

/-- The 32 blocks tile the result's 16384 rows: row r is in the block of point r / 512. -/
theorem cover (i : S16384x128.Idx) : ∃ t : Fin cfg0.N, (cfg0.win 10).flush t = true ∧ i ∈ ((cfg0.win 10).blk t).view.set := by
  have hi0 : (i 0).val < 16384 := (i 0).isLt
  have hi1 : (i 1).val < 128 := (i 1).isLt
  obtain ⟨t, q0, q1⟩ := idx_onto ⟨(i 0).val / 512, by omega⟩
  refine ⟨t, flush0_10 t, ?_⟩
  rw [mem_blk]
  intro a
  match a with
  | ⟨0, _⟩ =>
    show win0_10.index t (0 : Fin 2) * 512 ≤ (i 0).val ∧ (i 0).val < win0_10.index t (0 : Fin 2) * 512 + 512
    rw [q0]
    show (i 0).val / 512 * 512 ≤ (i 0).val ∧ (i 0).val < (i 0).val / 512 * 512 + 512
    omega
  | ⟨1, _⟩ =>
    show win0_10.index t (1 : Fin 2) * 128 ≤ (i 1).val ∧ (i 1).val < win0_10.index t (1 : Fin 2) * 128 + 128
    rw [q1]
    omega

/-- THE RESULT ARRAY after the region: the layer over the region's entry arrays. -/
theorem final (c : Dev nD) : (dats m 0 c).arrAt 10 cfg0.N = regionOut m c :=
  (dats m 0 c).arrAt_eq_of_cover 10 (regionOut m c) (fun t _ => flushed_eq m c t) cover

end Cert.KernelIdeal.RegionValue

end
-- ==== Proof.EdgeMlpLaw.lean ====
/-
  Laws of real-valued extended reals, and the exchange of the two evaluation orders of a node's output.

  An extended real is called real when it is the coercion of a real number. Real extended reals are closed
  under addition, multiplication, rectification `max · 0` and finite sums, so both hidden layers of every
  edge are real as soon as the features, weights and biases are.

  For a real second layer `g k j`, real mask weights `m k`, real third-layer weights `w j` and bias `b`,

      ∑ j, (∑ k, g k j * m k) * w j + b * ∑ k, m k  =  ∑ k, (∑ j, g k j * w j + b) * m k.

  Both sides are coercions of the same expression over ℝ (the coercion commutes with `+`, `*` and finite
  sums), and over ℝ the identity is distributivity together with the exchange of the two finite sums.
-/
import proofs.«100212_j23158463660311_2_alg».proof.Proof.EdgeMlp

noncomputable section

namespace Cert.EdgeMlp

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_zero : IsReal (0 : EReal) := ⟨0, EReal.coe_zero.symm⟩

theorem IsReal.max_zero {x : EReal} (hx : IsReal x) : IsReal (max x 0) := by
  rcases le_total x 0 with h | h
  · rw [max_eq_right h]; exact isReal_zero
  · rw [max_eq_left h]; exact hx

theorem IsReal.sum {n : ℕ} {f : Fin n → EReal} (hf : ∀ i, IsReal (f i)) : IsReal (∑ i, f i) := by
  have key : ∀ t : Finset (Fin n), IsReal (∑ i ∈ t, f i) := by
    intro t
    induction t using Finset.induction_on with
    | empty => simpa using isReal_zero
    | insert a t ha ih => rw [Finset.sum_insert ha]; exact (hf a).add ih
  exact key Finset.univ

theorem isReal_intCast (z : ℤ) : IsReal (((z : ℝ)) : EReal) := ⟨(z : ℝ), rfl⟩

/-- The coercion of reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem isReal_hid1 {C K H : ℕ} (s : Fin C → EReal) (nb : Fin K → Fin C → EReal)
    (W1a W1b : Fin C → Fin H → EReal) (b1 : Fin H → EReal)
    (hs : ∀ i, IsReal (s i)) (hnb : ∀ k i, IsReal (nb k i)) (hW1a : ∀ i h, IsReal (W1a i h))
    (hW1b : ∀ i h, IsReal (W1b i h)) (hb1 : ∀ h, IsReal (b1 h)) (k : Fin K) (h : Fin H) :
    IsReal (hid1 s nb W1a W1b b1 k h) := by
  unfold hid1
  exact IsReal.max_zero
    (((IsReal.sum fun i => (hnb k i).mul (hW1b i h)).add
      (IsReal.sum fun i => (hs i).mul (hW1a i h))).add (hb1 h))

theorem isReal_hid2 {C K H J : ℕ} (s : Fin C → EReal) (nb : Fin K → Fin C → EReal) (W1a W1b : Fin C → Fin H → EReal) (b1 : Fin H → EReal) (W2 : Fin H → Fin J → EReal) (b2 : Fin J → EReal)
    (hs : ∀ i, IsReal (s i)) (hnb : ∀ k i, IsReal (nb k i)) (hW1a : ∀ i h, IsReal (W1a i h)) (hW1b : ∀ i h, IsReal (W1b i h)) (hb1 : ∀ h, IsReal (b1 h)) (hW2 : ∀ h j, IsReal (W2 h j)) (hb2 : ∀ j, IsReal (b2 j)) (k : Fin K) (j : Fin J) :
    IsReal (hid2 s nb W1a W1b b1 W2 b2 k j) := by
  unfold hid2
  exact IsReal.max_zero
    ((IsReal.sum fun h => (isReal_hid1 s nb W1a W1b b1 hs hnb hW1a hW1b hb1 k h).mul (hW2 h j)).add (hb2 j))

/-- The exchange of the two orders of evaluation over an abstract real-valued second layer `g`. -/
theorem agg_eq_edge {K J : ℕ} (g : Fin K → Fin J → EReal) (mk : Fin K → EReal) (w : Fin J → EReal) (b : EReal)
    (hg : ∀ k j, IsReal (g k j)) (hmk : ∀ k, IsReal (mk k)) (hw : ∀ j, IsReal (w j)) (hb : IsReal b) :
    (∑ j : Fin J, (∑ k : Fin K, g k j * mk k) * w j) + b * ∑ k : Fin K, mk k
      = ∑ k : Fin K, ((∑ j : Fin J, g k j * w j) + b) * mk k := by
  choose g' hg' using hg
  choose m' hm' using hmk
  choose w' hw' using hw
  obtain ⟨b', rfl⟩ := hb
  have hL : (∑ j : Fin J, (∑ k : Fin K, g k j * mk k) * w j) + (b' : EReal) * ∑ k : Fin K, mk k
      = (((∑ j : Fin J, (∑ k : Fin K, g' k j * m' k) * w' j) + b' * ∑ k : Fin K, m' k : ℝ) : EReal) := by
    simp only [hg', hm', hw', EReal.coe_add, EReal.coe_mul, coe_sum]
  have hR : (∑ k : Fin K, ((∑ j : Fin J, g k j * w j) + (b' : EReal)) * mk k)
      = ((∑ k : Fin K, ((∑ j : Fin J, g' k j * w' j) + b') * m' k : ℝ) : EReal) := by
    simp only [hg', hm', hw', EReal.coe_add, EReal.coe_mul, coe_sum]
  rw [hL, hR]
  congr 1
  have h1 : (∑ j : Fin J, (∑ k : Fin K, g' k j * m' k) * w' j)
      = ∑ k : Fin K, (∑ j : Fin J, g' k j * w' j) * m' k := by
    simp only [Finset.sum_mul]
    rw [Finset.sum_comm]
    refine Finset.sum_congr rfl fun k _ => Finset.sum_congr rfl fun j _ => ?_
    ring
  rw [h1, Finset.mul_sum, ← Finset.sum_add_distrib]
  refine Finset.sum_congr rfl fun k _ => ?_
  ring

theorem outAgg_eq_outEdge {C K H J O : ℕ} (s : Fin C → EReal) (nb : Fin K → Fin C → EReal) (mk : Fin K → EReal) (W1a W1b : Fin C → Fin H → EReal) (b1 : Fin H → EReal) (W2 : Fin H → Fin J → EReal) (b2 : Fin J → EReal) (W3 : Fin J → Fin O → EReal) (b3 : Fin O → EReal)
    (hs : ∀ i, IsReal (s i)) (hnb : ∀ k i, IsReal (nb k i)) (hmk : ∀ k, IsReal (mk k)) (hW1a : ∀ i h, IsReal (W1a i h)) (hW1b : ∀ i h, IsReal (W1b i h)) (hb1 : ∀ h, IsReal (b1 h)) (hW2 : ∀ h j, IsReal (W2 h j)) (hb2 : ∀ j, IsReal (b2 j)) (hW3 : ∀ j o, IsReal (W3 j o)) (hb3 : ∀ o, IsReal (b3 o)) (o : Fin O) :
    outAgg s nb mk W1a W1b b1 W2 b2 W3 b3 o = outEdge s nb mk W1a W1b b1 W2 b2 W3 b3 o := by
  unfold outAgg outEdge
  exact agg_eq_edge (hid2 s nb W1a W1b b1 W2 b2) mk (fun j => W3 j o) (b3 o)
    (isReal_hid2 s nb W1a W1b b1 W2 b2 hs hnb hW1a hW1b hb1 hW2 hb2) hmk (fun j => hW3 j o) (hb3 o)

end Cert.EdgeMlp

end
-- ==== Proof.FiniteArgs.lean ====
/-
  Under the precondition every float argument entry is a real number.

  The precondition is the conjunction, over the float arguments `x`, of `jnp.all(|x| < +∞)`: the absolute value
  `max x (-x)` of every entry compared, strictly below, with the word of `+∞` (which the ideal reading takes to `⊤`),
  the comparisons reduced by `and` from 1 over all axes, and the per-argument results joined by `and`. A conjunction
  of one-bit words is 1 only if both are; a reduction by `and` over all axes that is 1 saw 1 at every index; and an
  extended real `x` with `max x (-x) < ⊤` is neither `⊤` nor `⊥` (whose negation is `⊤`), hence a real number.
-/
import proofs.«100212_j23158463660311_2_alg».proof.Pre_finite_inputs
import proofs.«100212_j23158463660311_2_alg».proof.Proof.Gen.Pre_finite_inputs
import proofs.«100212_j23158463660311_2_alg».proof.Proof.EdgeMlpLaw
import Idealize.ShloMosaic.Lib.ReduceAll
import Idealize.ShloMosaic.Lib.ValueIdx
import Idealize.ShloMosaic.PureOps.Ideal.Laws

namespace Cert.Pre_finite_inputs.FiniteArgs

open Cert.Pre_finite_inputs Idealize.ShloMosaic Cert.EdgeMlp

/-- An extended real whose absolute value `max x (-x)` is below `⊤` is a real number. -/
theorem real_of_abs_lt_top (x : EReal) (h : max x (-x) < ⊤) : IsReal x := by
  induction x using EReal.rec with
  | bot => simp at h
  | coe r => exact ⟨r, rfl⟩
  | top => simp at h

/-- The word of `+∞` reads as `⊤`. -/
theorem ofBits_inf : Ideal.ofBits .f32 0x7F800000#32 = ⊤ := by simp [Ideal.ofBits, Ideal.ieee]

/-- The rank-0 shape has one index. -/
instance subsingleton_scalarIdx : Subsingleton S_.Idx := ⟨fun _ _ => funext fun d => d.elim0⟩

/-- `jnp.all(|x| < +∞) = 1` says every entry of `x` is a real number, at any shape. -/
theorem real_of_all {s : Shape} {axes : List (Fin s.rank)} (x : FVec Ideal s .f32)
    (hb : S_.BroadcastsInDim s (![] : Fin 0 → Fin s.rank)) (hr : s.ReducesTo axes S_) (hS : 0 < S_.numel)
    (hall : Host.reduce IntOp.andi
        (cmpf .olt (Host.absf x) (broadcastInDim s ![] hb (constant (F := Ideal) S_ .f32 0x7F800000#32)))
        (constantI S_ 1 1#1) hr hS ValueIdx.ix0 = 1#1) :
    ∀ i, IsReal (x i) := by
  intro i
  have h1 := Host.reduce_andi_all _ _ hr hS ValueIdx.ix0 hall i
  have h2 : Ideal.cmp .olt (max (x i) (-(x i))) (Ideal.ofBits .f32 0x7F800000#32) = 1#1 := h1
  rw [ofBits_inf] at h2
  apply real_of_abs_lt_top
  by_contra hn
  simp [Ideal.cmp, hn] at h2

/-- A conjunction of two rank-0 one-bit arrays that is 1 has both conjuncts 1. -/
theorem andi_scalar {A B : IVec S_ 1} (h : andi A B ValueIdx.ix0 = 1#1) :
    A ValueIdx.ix0 = 1#1 ∧ B ValueIdx.ix0 = 1#1 := IntOp.andi_eq_one.1 h

theorem real_of_pre [Cert.Pre_finite_inputs.Facts] (a0 a1 : FVec Ideal S4x4096x3 .f32) (a2 : FVec Ideal S4x4096x128 .f32) (a3 a4 : IVec S4x4096x16 32)
    (a5 : FVec Ideal S256x256 .f32) (a6 : FVec Ideal S256 .f32) (a7 : FVec Ideal S256x256 .f32) (a8 : FVec Ideal S256 .f32)
    (a9 : FVec Ideal S256x128 .f32) (a10 : FVec Ideal S128 .f32)
    (h : Cert.Pre_finite_inputs.fn (F := Ideal) a0 a1 a2 a3 a4 a5 a6 a7 a8 a9 a10 = (fun _ => 1#1)) :
    (∀ i, IsReal (a2 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) := by
  have h0 := congrFun h ValueIdx.ix0
  dsimp only [fn, fn_part1, fn_part2] at h0
  obtain ⟨h38, h42⟩ := andi_scalar h0
  obtain ⟨h33, h37⟩ := andi_scalar h38
  obtain ⟨h28, h32⟩ := andi_scalar h33
  obtain ⟨h23, h27⟩ := andi_scalar h28
  obtain ⟨h18, h22⟩ := andi_scalar h23
  obtain ⟨h13, h17⟩ := andi_scalar h18
  obtain ⟨_, h12⟩ := andi_scalar h13
  exact ⟨real_of_all a2 _ _ _ h12, real_of_all a5 _ _ _ h17, real_of_all a6 _ _ _ h22,
    real_of_all a7 _ _ _ h27, real_of_all a8 _ _ _ h32, real_of_all a9 _ _ _ h37, real_of_all a10 _ _ _ h42⟩

end Cert.Pre_finite_inputs.FiniteArgs
-- ==== Proof.KernelRun.lean ====
/-
  The kernel program's run, read: its result is the layer function of its arguments.

  After the region the host splits the 16384 result rows back into (b, n): entry (b, n, o) of @main's result is entry
  (b·4096 + n, o) of the region's result array, which is `Entry.regionOut` (`RegionValue.final`), that is the
  aggregate-then-project form of the layer at node (b, n). Under the precondition every float argument entry is a real
  number, a gathered neighbour row is a row of the feature argument, and a mask word denotes an integer; so the two
  orders of the last layer agree (`EdgeMlp.outAgg_eq_outEdge`) and the result is `EdgeMlp.layer` of the arguments.
-/
import proofs.«100212_j23158463660311_2_alg».proof.Proof.Gen.KernelIdeal.Frame
import proofs.«100212_j23158463660311_2_alg».proof.Proof.RegionValue
import proofs.«100212_j23158463660311_2_alg».proof.Proof.RegionEntry
import proofs.«100212_j23158463660311_2_alg».proof.Proof.EdgeMlpLaw
import proofs.«100212_j23158463660311_2_alg».proof.Proof.LibRankThreeForms
import proofs.«100212_j23158463660311_2_alg».proof.Proof.FiniteArgs
import proofs.«100212_j23158463660311_2_alg».proof.Defs
import Idealize.ShloMosaic.Lib.StableHlo.Run

noncomputable section

namespace Cert.KernelIdeal.Run

open Cert.KernelIdeal Cert.KernelIdeal.Gen Idealize.ShloMosaic Idealize.ShloMosaic.TcCoe Idealize.SL.Sem
  Idealize.ShloMosaic.StableHlo Idealize.ShloMosaic.ValueIdx Cert.EdgeMlp Cert.KernelIdeal.Entry Cert.KernelIdeal.RegionValue

variable (m : (ℓ : Loc nD τ sig) → Buf (Elt Ideal) ℓ) (ρ : Dev nD → PrngReg)

/-- The layer function of the arguments on core c. -/
abbrev layerOf (c : Dev nD) : S4x4096x128.Idx → EReal :=
  layer (aFeats m c) (aNbr m c) (aValid m c) (aW1 m c) (aB1 m c) (aW2 m c) (aB2 m c) (aW3 m c) (aB3 m c)

/-- @main's result after the host's last line: the region's result array with its rows split back into (b, n). -/
theorem tail_eq (c : Dev nD) :
    Pipeline.afterTail₀ cfgs (dats m) 0 (V0 m) [hostOps1] c main_v28
      = (shapeCast (α := EReal) S4x4096x128 (regionOut m c) shapeCasts_S16384x128_S4x4096x128 : S4x4096x128.Idx → EReal) := by
  unfold Pipeline.afterTail₀
  show StableHlo.after (hostOps1 (F := Ideal)) _ (Proc.devRef .tc main_v28) = _
  after_results
  rw [show Pipeline.withArrays (cfgs 0).spec c (V0 m c) (fun w => (dats m 0 c).arrAt w (cfgs 0).N) (Proc.devRef .tc main_v27)
        = regionOut m c from (Pipeline.withArrays_arr spec0 launch0.win.arr_inj c _ _ 10).trans (final m c)]
  rfl

/-- Every entry of the gathered neighbour features is an entry of the feature argument. -/
theorem isReal_nbr (c : Dev nD) (hf : ∀ i, IsReal (aFeats m c i)) (j : S4x4096x16x128.Idx) : IsReal (aNbr m c j) :=
  hf _

/-- Where every float argument entry is real, the split result is the layer function of the arguments. -/
theorem split_eq_layer (c : Dev nD) (h2 : ∀ i, IsReal (aFeats m c i)) (h5 : ∀ i, IsReal (aW1 m c i)) (h6 : ∀ i, IsReal (aB1 m c i))
    (h7 : ∀ i, IsReal (aW2 m c i)) (h8 : ∀ i, IsReal (aB2 m c i)) (h9 : ∀ i, IsReal (aW3 m c i)) (h10 : ∀ i, IsReal (aB3 m c i)) :
    (shapeCast (α := EReal) S4x4096x128 (regionOut m c) shapeCasts_S16384x128_S4x4096x128 : S4x4096x128.Idx → EReal) = layerOf m c := by
  funext j
  obtain ⟨b, n, o, rfl⟩ : ∃ (b : Fin 4) (n : Fin 4096) (o : Fin 128), j = ix3 b n o := ⟨j 0, j 1, j 2, eq_ix3 j⟩
  have hb := b.isLt
  have hn := n.isLt
  rw [shapeCast_pc_abc_apply (regionOut m c) shapeCasts_S16384x128_S4x4096x128 b n o (⟨b.val * 4096 + n.val, by omega⟩ : Fin 16384) rfl]
  rw [regionOut_apply m c b n o _ rfl]
  show _ = nodeOut (aFeats m c) (aNbr m c) (aValid m c) (aW1 m c) (aB1 m c) (aW2 m c) (aB2 m c) (aW3 m c) (aB3 m c) b n o
  unfold nodeOut
  exact outAgg_eq_outEdge _ _ _ _ _ _ _ _ _ _ (fun i => h2 _) (fun k i => isReal_nbr m c h2 _) (fun k => isReal_intCast _)
    (fun i h => h5 _) (fun i h => h5 _) (fun h => h6 _) (fun h j => h7 _) (fun j => h8 _) (fun j o => h9 _) (fun o => h10 _) o

/-- THE KERNEL PROGRAM'S RUN, READ: under the precondition every weakly fair execution ends with @main's result at the
    layer function of the arguments, and the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v28) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have hfin := Cert.Pre_finite_inputs.FiniteArgs.real_of_pre _ _ (aFeats m c) (aNbrIdx m c) (aValid m c) (aW1 m c) (aB1 m c)
      (aW2 m c) (aB2 m c) (aW3 m c) (aB3 m c) (hpre c)
    ⟨((h c).2 main_v28 (Pipeline.mem_restRefs_of main_v28 (by decide) (by decide))).trans
        ((tail_eq m c).trans (split_eq_layer m c hfin.1 hfin.2.1 hfin.2.2.1 hfin.2.2.2.1 hfin.2.2.2.2.1 hfin.2.2.2.2.2.1 hfin.2.2.2.2.2.2)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans ((((dats m) 0 c).arrAt_in 5 rfl _).trans ((A_eq m c 5).trans (V_main_arg6 m c))),
      ((h c).2 main_arg7 (Pipeline.mem_restRefs_of main_arg7 (by decide) (by decide))).trans (W_main_arg7 m (dats m) c),
      ((h c).1 7).trans ((((dats m) 0 c).arrAt_in 7 rfl _).trans ((A_eq m c 7).trans (V_main_arg8 m c))),
      ((h c).2 main_arg9 (Pipeline.mem_restRefs_of main_arg9 (by decide) (by decide))).trans (W_main_arg9 m (dats m) c),
      ((h c).1 9).trans ((((dats m) 0 c).arrAt_in 9 rfl _).trans ((A_eq m c 9).trans (V_main_arg10 m c)))⟩)
    (run_main m ρ)

end Cert.KernelIdeal.Run

end
-- ==== Proof.lean ====
/-
  The certificate of one message-passing layer: a Pallas kernel against its jnp reference, equal on the extended reals.

  The layer. Every node (b, n) has a feature row; for each of its 16 neighbour slots k the reference concatenates the
  node's row with the neighbour's row (fetched by a gather on the neighbour-index argument), runs the pair through a
  three-layer perceptron (256 → 256 → 256 → 128, rectified after the first two layers), multiplies the edge's result by
  the slot's mask word read as a number, and sums over the 16 slots.

  The kernel. The same gather is done on the host; the kernel proper works on 512 node rows at a time. It applies the
  first layer's weight matrix in two halves (rows 0–127 to the node's own row, once per node; rows 128–255 to each
  neighbour row), and — nothing nonlinear standing between the third layer and the mask — it sums the masked second
  layer over the slots FIRST and applies the third layer once per node:
      Σ_k (Σ_j h2[k,j]·W3[j,o] + b3[o])·mask[k]  =  Σ_j (Σ_k h2[k,j]·mask[k])·W3[j,o] + b3[o]·Σ_k mask[k].
  That identity is distributivity and an exchange of two finite sums; on the extended reals it needs the quantities
  finite, which the precondition gives (every float argument entry is a real number; a gathered row is a row of the
  feature argument; a mask word denotes an integer). Changes of float format are the identity at this instance, a
  matrix product into a zero accumulator is the plain sum of products, and the order of a sum does not matter.

  The modules: EdgeMlp (one node, both orders of the last layer) and EdgeMlpLaw (they agree on reals); Spec (the layer
  on whole arrays); RefLayer (the reference's result is the layer); BodyValue (the kernel body at a row); RegionEntry
  (what the kernel's operands hold when it starts); RegionValue (the 32 blocks of 512 rows make up the result array);
  KernelRun (the kernel program's result is the layer); FiniteArgs (the precondition read entry by entry).
  The three frame claims are the generated frames (the reference's is its generated run with the result dropped), and
  the idealization rewrote nothing, so the preservation claim is `True`.
-/
import proofs.«100212_j23158463660311_2_alg».proof.Defs
import proofs.«100212_j23158463660311_2_alg».proof.Proof.Gen.Kernel
import proofs.«100212_j23158463660311_2_alg».proof.Proof.Gen.Kernel.Frame
import proofs.«100212_j23158463660311_2_alg».proof.Proof.Gen.KernelIdeal
import proofs.«100212_j23158463660311_2_alg».proof.Proof.Gen.KernelIdeal.Frame
import proofs.«100212_j23158463660311_2_alg».proof.Proof.Gen.ReferenceIdeal
import proofs.«100212_j23158463660311_2_alg».proof.Proof.Gen.Pre_finite_inputs
import proofs.«100212_j23158463660311_2_alg».proof.Proof.Gen.ReferenceIdeal.Run
import proofs.«100212_j23158463660311_2_alg».proof.Proof.Gen.ReferenceIdeal.Read
import proofs.«100212_j23158463660311_2_alg».proof.Proof.RefLayer
import proofs.«100212_j23158463660311_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer function of the (agreeing) arguments as their result. -/
theorem algebraic : Cert.algebraic_KernelIdeal_ReferenceIdeal := by
  intro m ρ m' ρ' hpre hagree
  refine ⟨fun c => Cert.KernelIdeal.Run.layerOf m c, Cert.KernelIdeal.Run.run m ρ hpre, ?_⟩
  refine (θ_run Cert.ReferenceIdeal.defs _ _).mono (fun _ h c => ⟨(h c).1.trans ?_, (h c).2⟩)
    (Cert.ReferenceIdeal.Value.run (F := Ideal) m' ρ')
  obtain ⟨-, -, h2, h3, h4, h5, h6, h7, h8, h9, h10⟩ := hagree c
  rw [Cert.ReferenceIdeal.Read.val_main_v38_eq, Cert.ReferenceIdeal.RefLayer.result_eq_layer, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
